-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3024 : Shape := ⟨2, ![32768, 3024]⟩
abbrev S_ : Shape := ⟨0, ![]⟩

class Facts : Prop where
  bcast_S_S32768x3024 : S_.BroadcastsInDim S32768x3024 (![] : Fin 0 → Fin S32768x3024.rank)
  reducesTo_S32768x3024_S_d0_1 : S32768x3024.ReducesTo [0, 1] S_
  h_S_ : 0 < S_.numel

variable [Facts]

def fn {F : FTy → Type} [FloatOps F] (main_arg0 : FVec F S32768x3024 .f32) : IVec S_ 1 :=
  let main_v0 : FVec F S32768x3024 .f32 := Host.absf main_arg0
  let main_cst : FVec F S_ .f32 := constant S_ .f32 0x7F800000#32
  let main_v1 : FVec F S32768x3024 .f32 := broadcastInDim S32768x3024 ![] bcast_S_S32768x3024 main_cst
  let main_v2 : IVec S32768x3024 1 := cmpf .olt main_v0 main_v1
  let main_c : IVec S_ 1 := constantI S_ 1 1#1
  let main_v3 : IVec S_ 1 := (fun x v => Host.reduce IntOp.andi x v reducesTo_S32768x3024_S_d0_1 h_S_) main_v2 main_c
  main_v3
-- ==== Kernel.lean ====
abbrev S32768x3024 : Shape := ⟨2, ![32768, 3024]⟩
abbrev S256x3024 : Shape := ⟨2, ![256, 3024]⟩
abbrev S256x99 : Shape := ⟨2, ![256, 99]⟩
abbrev S256x9x11 : Shape := ⟨3, ![256, 9, 11]⟩
abbrev S256x9 : Shape := ⟨2, ![256, 9]⟩
abbrev S256x9x1 : Shape := ⟨3, ![256, 9, 1]⟩
abbrev S256x72 : Shape := ⟨2, ![256, 72]⟩
abbrev S256x9x8 : Shape := ⟨3, ![256, 9, 8]⟩
abbrev S256x66 : Shape := ⟨2, ![256, 66]⟩
abbrev S256x6x11 : Shape := ⟨3, ![256, 6, 11]⟩
abbrev S256x6 : Shape := ⟨2, ![256, 6]⟩
abbrev S256x6x1 : Shape := ⟨3, ![256, 6, 1]⟩

abbrev nBuf : Space → Nat
  | .hbm => 2
  | .vmem => 4
  | .smem => 0
  | _ => 0

abbrev bufTy : (tb : Table) → Fin (tcTables nBuf tb) → BufTy
  | .hbm, ⟨0, _⟩ => ⟨S32768x3024, .f32⟩
  | .hbm, ⟨1, _⟩ => ⟨S32768x3024, .f32⟩
  | .local _ .vmem, ⟨0, _⟩ => ⟨S256x3024, .f32⟩
  | .local _ .vmem, ⟨1, _⟩ => ⟨S256x3024, .f32⟩
  | .local _ .vmem, ⟨2, _⟩ => ⟨S256x3024, .f32⟩
  | .local _ .vmem, ⟨3, _⟩ => ⟨S256x3024, .f32⟩
  | _, _ => ⟨S32768x3024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x3024_S256x3024_0_0 : ∀ a, (![0, 0] : Fin 2 → Nat) a + S256x3024.size a ≤ S256x3024.size a
  h_S256x3024 : 0 < S256x3024.numel
  slices_S256x3024_o0_0_S256x99 : S256x3024.Slices ![0, 0] S256x99
  shapeCasts_S256x99_S256x9x11 : S256x99.ShapeCasts S256x9x11
  reduces_S256x9x11_S256x9 : S256x9x11.Reduces [2] S256x9
  shapeCasts_S256x9_S256x9x1 : S256x9.ShapeCasts S256x9x1
  broadcasts_S256x9x1_S256x9x11 : S256x9x1.Broadcasts S256x9x11
  shapeCasts_S256x9x11_S256x99 : S256x9x11.ShapeCasts S256x99
  inb_S256x3024_S256x99_0_0 : ∀ a, (![0, 0] : Fin 2 → Nat) a + S256x99.size a ≤ S256x3024.size a
  h_S256x99 : 0 < S256x99.numel
  slices_S256x3024_o0_99_S256x99 : S256x3024.Slices ![0, 99] S256x99
  inb_S256x3024_S256x99_0_99 : ∀ a, (![0, 99] : Fin 2 → Nat) a + S256x99.size a ≤ S256x3024.size a
  slices_S256x3024_o0_198_S256x72 : S256x3024.Slices ![0, 198] S256x72
  shapeCasts_S256x72_S256x9x8 : S256x72.ShapeCasts S256x9x8
  reduces_S256x9x8_S256x9 : S256x9x8.Reduces [2] S256x9
  broadcasts_S256x9x1_S256x9x8 : S256x9x1.Broadcasts S256x9x8
  shapeCasts_S256x9x8_S256x72 : S256x9x8.ShapeCasts S256x72
  inb_S256x3024_S256x72_0_198 : ∀ a, (![0, 198] : Fin 2 → Nat) a + S256x72.size a ≤ S256x3024.size a
  h_S256x72 : 0 < S256x72.numel
  slices_S256x3024_o0_270_S256x66 : S256x3024.Slices ![0, 270] S256x66
  shapeCasts_S256x66_S256x6x11 : S256x66.ShapeCasts S256x6x11
  reduces_S256x6x11_S256x6 : S256x6x11.Reduces [2] S256x6
  shapeCasts_S256x6_S256x6x1 : S256x6.ShapeCasts S256x6x1
  broadcasts_S256x6x1_S256x6x11 : S256x6x1.Broadcasts S256x6x11
  shapeCasts_S256x6x11_S256x66 : S256x6x11.ShapeCasts S256x66
  inb_S256x3024_S256x66_0_270 : ∀ a, (![0, 270] : Fin 2 → Nat) a + S256x66.size a ≤ S256x3024.size a
  h_S256x66 : 0 < S256x66.numel
  slices_S256x3024_o0_336_S256x99 : S256x3024.Slices ![0, 336] S256x99
  inb_S256x3024_S256x99_0_336 : ∀ a, (![0, 336] : Fin 2 → Nat) a + S256x99.size a ≤ S256x3024.size a
  slices_S256x3024_o0_435_S256x99 : S256x3024.Slices ![0, 435] S256x99
  inb_S256x3024_S256x99_0_435 : ∀ a, (![0, 435] : Fin 2 → Nat) a + S256x99.size a ≤ S256x3024.size a
  slices_S256x3024_o0_534_S256x72 : S256x3024.Slices ![0, 534] S256x72
  inb_S256x3024_S256x72_0_534 : ∀ a, (![0, 534] : Fin 2 → Nat) a + S256x72.size a ≤ S256x3024.size a
  slices_S256x3024_o0_606_S256x66 : S256x3024.Slices ![0, 606] S256x66
  inb_S256x3024_S256x66_0_606 : ∀ a, (![0, 606] : Fin 2 → Nat) a + S256x66.size a ≤ S256x3024.size a
  slices_S256x3024_o0_672_S256x99 : S256x3024.Slices ![0, 672] S256x99
  inb_S256x3024_S256x99_0_672 : ∀ a, (![0, 672] : Fin 2 → Nat) a + S256x99.size a ≤ S256x3024.size a
  slices_S256x3024_o0_771_S256x99 : S256x3024.Slices ![0, 771] S256x99
  inb_S256x3024_S256x99_0_771 : ∀ a, (![0, 771] : Fin 2 → Nat) a + S256x99.size a ≤ S256x3024.size a
  slices_S256x3024_o0_870_S256x72 : S256x3024.Slices ![0, 870] S256x72
  inb_S256x3024_S256x72_0_870 : ∀ a, (![0, 870] : Fin 2 → Nat) a + S256x72.size a ≤ S256x3024.size a
  slices_S256x3024_o0_942_S256x66 : S256x3024.Slices ![0, 942] S256x66
  inb_S256x3024_S256x66_0_942 : ∀ a, (![0, 942] : Fin 2 → Nat) a + S256x66.size a ≤ S256x3024.size a
  slices_S256x3024_o0_1008_S256x99 : S256x3024.Slices ![0, 1008] S256x99
  inb_S256x3024_S256x99_0_1008 : ∀ a, (![0, 1008] : Fin 2 → Nat) a + S256x99.size a ≤ S256x3024.size a
  slices_S256x3024_o0_1107_S256x99 : S256x3024.Slices ![0, 1107] S256x99
  inb_S256x3024_S256x99_0_1107 : ∀ a, (![0, 1107] : Fin 2 → Nat) a + S256x99.size a ≤ S256x3024.size a
  slices_S256x3024_o0_1206_S256x72 : S256x3024.Slices ![0, 1206] S256x72
  inb_S256x3024_S256x72_0_1206 : ∀ a, (![0, 1206] : Fin 2 → Nat) a + S256x72.size a ≤ S256x3024.size a
  slices_S256x3024_o0_1278_S256x66 : S256x3024.Slices ![0, 1278] S256x66
  inb_S256x3024_S256x66_0_1278 : ∀ a, (![0, 1278] : Fin 2 → Nat) a + S256x66.size a ≤ S256x3024.size a
  slices_S256x3024_o0_1344_S256x99 : S256x3024.Slices ![0, 1344] S256x99
  inb_S256x3024_S256x99_0_1344 : ∀ a, (![0, 1344] : Fin 2 → Nat) a + S256x99.size a ≤ S256x3024.size a
  slices_S256x3024_o0_1443_S256x99 : S256x3024.Slices ![0, 1443] S256x99
  inb_S256x3024_S256x99_0_1443 : ∀ a, (![0, 1443] : Fin 2 → Nat) a + S256x99.size a ≤ S256x3024.size a
  slices_S256x3024_o0_1542_S256x72 : S256x3024.Slices ![0, 1542] S256x72
  inb_S256x3024_S256x72_0_1542 : ∀ a, (![0, 1542] : Fin 2 → Nat) a + S256x72.size a ≤ S256x3024.size a
  slices_S256x3024_o0_1614_S256x66 : S256x3024.Slices ![0, 1614] S256x66
  inb_S256x3024_S256x66_0_1614 : ∀ a, (![0, 1614] : Fin 2 → Nat) a + S256x66.size a ≤ S256x3024.size a
  slices_S256x3024_o0_1680_S256x99 : S256x3024.Slices ![0, 1680] S256x99
  inb_S256x3024_S256x99_0_1680 : ∀ a, (![0, 1680] : Fin 2 → Nat) a + S256x99.size a ≤ S256x3024.size a
  slices_S256x3024_o0_1779_S256x99 : S256x3024.Slices ![0, 1779] S256x99
  inb_S256x3024_S256x99_0_1779 : ∀ a, (![0, 1779] : Fin 2 → Nat) a + S256x99.size a ≤ S256x3024.size a
  slices_S256x3024_o0_1878_S256x72 : S256x3024.Slices ![0, 1878] S256x72
  inb_S256x3024_S256x72_0_1878 : ∀ a, (![0, 1878] : Fin 2 → Nat) a + S256x72.size a ≤ S256x3024.size a
  slices_S256x3024_o0_1950_S256x66 : S256x3024.Slices ![0, 1950] S256x66
  inb_S256x3024_S256x66_0_1950 : ∀ a, (![0, 1950] : Fin 2 → Nat) a + S256x66.size a ≤ S256x3024.size a
  slices_S256x3024_o0_2016_S256x99 : S256x3024.Slices ![0, 2016] S256x99
  inb_S256x3024_S256x99_0_2016 : ∀ a, (![0, 2016] : Fin 2 → Nat) a + S256x99.size a ≤ S256x3024.size a
  slices_S256x3024_o0_2115_S256x99 : S256x3024.Slices ![0, 2115] S256x99
  inb_S256x3024_S256x99_0_2115 : ∀ a, (![0, 2115] : Fin 2 → Nat) a + S256x99.size a ≤ S256x3024.size a
  slices_S256x3024_o0_2214_S256x72 : S256x3024.Slices ![0, 2214] S256x72
  inb_S256x3024_S256x72_0_2214 : ∀ a, (![0, 2214] : Fin 2 → Nat) a + S256x72.size a ≤ S256x3024.size a
  slices_S256x3024_o0_2286_S256x66 : S256x3024.Slices ![0, 2286] S256x66
  inb_S256x3024_S256x66_0_2286 : ∀ a, (![0, 2286] : Fin 2 → Nat) a + S256x66.size a ≤ S256x3024.size a
  slices_S256x3024_o0_2352_S256x99 : S256x3024.Slices ![0, 2352] S256x99
  inb_S256x3024_S256x99_0_2352 : ∀ a, (![0, 2352] : Fin 2 → Nat) a + S256x99.size a ≤ S256x3024.size a
  slices_S256x3024_o0_2451_S256x99 : S256x3024.Slices ![0, 2451] S256x99
  inb_S256x3024_S256x99_0_2451 : ∀ a, (![0, 2451] : Fin 2 → Nat) a + S256x99.size a ≤ S256x3024.size a
  slices_S256x3024_o0_2550_S256x72 : S256x3024.Slices ![0, 2550] S256x72
  inb_S256x3024_S256x72_0_2550 : ∀ a, (![0, 2550] : Fin 2 → Nat) a + S256x72.size a ≤ S256x3024.size a
  slices_S256x3024_o0_2622_S256x66 : S256x3024.Slices ![0, 2622] S256x66
  inb_S256x3024_S256x66_0_2622 : ∀ a, (![0, 2622] : Fin 2 → Nat) a + S256x66.size a ≤ S256x3024.size a
  slices_S256x3024_o0_2688_S256x99 : S256x3024.Slices ![0, 2688] S256x99
  inb_S256x3024_S256x99_0_2688 : ∀ a, (![0, 2688] : Fin 2 → Nat) a + S256x99.size a ≤ S256x3024.size a
  slices_S256x3024_o0_2787_S256x99 : S256x3024.Slices ![0, 2787] S256x99
  inb_S256x3024_S256x99_0_2787 : ∀ a, (![0, 2787] : Fin 2 → Nat) a + S256x99.size a ≤ S256x3024.size a
  slices_S256x3024_o0_2886_S256x72 : S256x3024.Slices ![0, 2886] S256x72
  inb_S256x3024_S256x72_0_2886 : ∀ a, (![0, 2886] : Fin 2 → Nat) a + S256x72.size a ≤ S256x3024.size a
  slices_S256x3024_o0_2958_S256x66 : S256x3024.Slices ![0, 2958] S256x66
  inb_S256x3024_S256x66_0_2958 : ∀ a, (![0, 2958] : Fin 2 → Nat) a + S256x66.size a ≤ S256x3024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3024.size a ≤ S32768x3024.size a
  hwx0_0 : ∀ i : grid0.Coords, EltTy.bits .f32 = 32 ∨ (Rect.block (s := S32768x3024) S256x3024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3024.size a ≤ S32768x3024.size a
  hwx0_1 : ∀ i : grid0.Coords, EltTy.bits .f32 = 32 ∨ (Rect.block (s := S32768x3024) S256x3024.size (cc0_transform_1 i) (hinb0_1 i)).WholeWords (EltTy.packing .f32)

variable [Facts₀]

abbrev win0_0 : Pipeline.Window sig grid0 :=
  Pipeline.Window.ofSpec (Memref.whole main_arg0) S256x3024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x3024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x3024 : Shape := ⟨2, ![32768, 3024]⟩
abbrev S32768x9x336 : Shape := ⟨3, ![32768, 9, 336]⟩
abbrev S32768x9x99 : Shape := ⟨3, ![32768, 9, 99]⟩
abbrev S32768x9x9x11 : Shape := ⟨4, ![32768, 9, 9, 11]⟩
abbrev S_ : Shape := ⟨0, ![]⟩
abbrev S32768x9x9 : Shape := ⟨3, ![32768, 9, 9]⟩
abbrev S32768x9x9x1 : Shape := ⟨4, ![32768, 9, 9, 1]⟩
abbrev S32768x9x72 : Shape := ⟨3, ![32768, 9, 72]⟩
abbrev S32768x9x9x8 : Shape := ⟨4, ![32768, 9, 9, 8]⟩
abbrev S32768x9x66 : Shape := ⟨3, ![32768, 9, 66]⟩
abbrev S32768x9x6x11 : Shape := ⟨4, ![32768, 9, 6, 11]⟩
abbrev S32768x9x6 : Shape := ⟨3, ![32768, 9, 6]⟩
abbrev S32768x9x6x1 : Shape := ⟨4, ![32768, 9, 6, 1]⟩

abbrev nBuf : Space → Nat
  | .hbm => 72
  | .vmem => 0
  | .smem => 0
  | _ => 0

abbrev bufTy : (tb : Table) → Fin (tcTables nBuf tb) → BufTy
  | .hbm, ⟨0, _⟩ => ⟨S32768x3024, .f32⟩
  | .hbm, ⟨1, _⟩ => ⟨S32768x9x336, .f32⟩
  | .hbm, ⟨2, _⟩ => ⟨S32768x9x99, .f32⟩
  | .hbm, ⟨3, _⟩ => ⟨S32768x9x9x11, .f32⟩
  | .hbm, ⟨4, _⟩ => ⟨S_, .f32⟩
  | .hbm, ⟨5, _⟩ => ⟨S32768x9x9, .f32⟩
  | .hbm, ⟨6, _⟩ => ⟨S_, .f32⟩
  | .hbm, ⟨7, _⟩ => ⟨S32768x9x9, .f32⟩
  | .hbm, ⟨8, _⟩ => ⟨S32768x9x9, .f32⟩
  | .hbm, ⟨9, _⟩ => ⟨S32768x9x9x1, .f32⟩
  | .hbm, ⟨10, _⟩ => ⟨S32768x9x9x11, .f32⟩
  | .hbm, ⟨11, _⟩ => ⟨S32768x9x9x11, .f32⟩
  | .hbm, ⟨12, _⟩ => ⟨S32768x9x9x11, .f32⟩
  | .hbm, ⟨13, _⟩ => ⟨S_, .f32⟩
  | .hbm, ⟨14, _⟩ => ⟨S32768x9x9, .f32⟩
  | .hbm, ⟨15, _⟩ => ⟨S32768x9x9x1, .f32⟩
  | .hbm, ⟨16, _⟩ => ⟨S32768x9x9x11, .f32⟩
  | .hbm, ⟨17, _⟩ => ⟨S32768x9x9x11, .f32⟩
  | .hbm, ⟨18, _⟩ => ⟨S32768x9x99, .f32⟩
  | .hbm, ⟨19, _⟩ => ⟨S32768x9x99, .f32⟩
  | .hbm, ⟨20, _⟩ => ⟨S32768x9x9x11, .f32⟩
  | .hbm, ⟨21, _⟩ => ⟨S_, .f32⟩
  | .hbm, ⟨22, _⟩ => ⟨S32768x9x9, .f32⟩
  | .hbm, ⟨23, _⟩ => ⟨S_, .f32⟩
  | .hbm, ⟨24, _⟩ => ⟨S32768x9x9, .f32⟩
  | .hbm, ⟨25, _⟩ => ⟨S32768x9x9, .f32⟩
  | .hbm, ⟨26, _⟩ => ⟨S32768x9x9x1, .f32⟩
  | .hbm, ⟨27, _⟩ => ⟨S32768x9x9x11, .f32⟩
  | .hbm, ⟨28, _⟩ => ⟨S32768x9x9x11, .f32⟩
  | .hbm, ⟨29, _⟩ => ⟨S32768x9x9x11, .f32⟩
  | .hbm, ⟨30, _⟩ => ⟨S_, .f32⟩
  | .hbm, ⟨31, _⟩ => ⟨S32768x9x9, .f32⟩
  | .hbm, ⟨32, _⟩ => ⟨S32768x9x9x1, .f32⟩
  | .hbm, ⟨33, _⟩ => ⟨S32768x9x9x11, .f32⟩
  | .hbm, ⟨34, _⟩ => ⟨S32768x9x9x11, .f32⟩
  | .hbm, ⟨35, _⟩ => ⟨S32768x9x99, .f32⟩
  | .hbm, ⟨36, _⟩ => ⟨S32768x9x72, .f32⟩
  | .hbm, ⟨37, _⟩ => ⟨S32768x9x9x8, .f32⟩
  | .hbm, ⟨38, _⟩ => ⟨S_, .f32⟩
  | .hbm, ⟨39, _⟩ => ⟨S32768x9x9, .f32⟩
  | .hbm, ⟨40, _⟩ => ⟨S_, .f32⟩
  | .hbm, ⟨41, _⟩ => ⟨S32768x9x9, .f32⟩
  | .hbm, ⟨42, _⟩ => ⟨S32768x9x9, .f32⟩
  | .hbm, ⟨43, _⟩ => ⟨S32768x9x9x1, .f32⟩
  | .hbm, ⟨44, _⟩ => ⟨S32768x9x9x8, .f32⟩
  | .hbm, ⟨45, _⟩ => ⟨S32768x9x9x8, .f32⟩
  | .hbm, ⟨46, _⟩ => ⟨S32768x9x9x8, .f32⟩
  | .hbm, ⟨47, _⟩ => ⟨S_, .f32⟩
  | .hbm, ⟨48, _⟩ => ⟨S32768x9x9, .f32⟩
  | .hbm, ⟨49, _⟩ => ⟨S32768x9x9x1, .f32⟩
  | .hbm, ⟨50, _⟩ => ⟨S32768x9x9x8, .f32⟩
  | .hbm, ⟨51, _⟩ => ⟨S32768x9x9x8, .f32⟩
  | .hbm, ⟨52, _⟩ => ⟨S32768x9x72, .f32⟩
  | .hbm, ⟨53, _⟩ => ⟨S32768x9x66, .f32⟩
  | .hbm, ⟨54, _⟩ => ⟨S32768x9x6x11, .f32⟩
  | .hbm, ⟨55, _⟩ => ⟨S_, .f32⟩
  | .hbm, ⟨56, _⟩ => ⟨S32768x9x6, .f32⟩
  | .hbm, ⟨57, _⟩ => ⟨S_, .f32⟩
  | .hbm, ⟨58, _⟩ => ⟨S32768x9x6, .f32⟩
  | .hbm, ⟨59, _⟩ => ⟨S32768x9x6, .f32⟩
  | .hbm, ⟨60, _⟩ => ⟨S32768x9x6x1, .f32⟩
  | .hbm, ⟨61, _⟩ => ⟨S32768x9x6x11, .f32⟩
  | .hbm, ⟨62, _⟩ => ⟨S32768x9x6x11, .f32⟩
  | .hbm, ⟨63, _⟩ => ⟨S32768x9x6x11, .f32⟩
  | .hbm, ⟨64, _⟩ => ⟨S_, .f32⟩
  | .hbm, ⟨65, _⟩ => ⟨S32768x9x6, .f32⟩
  | .hbm, ⟨66, _⟩ => ⟨S32768x9x6x1, .f32⟩
  | .hbm, ⟨67, _⟩ => ⟨S32768x9x6x11, .f32⟩
  | .hbm, ⟨68, _⟩ => ⟨S32768x9x6x11, .f32⟩
  | .hbm, ⟨69, _⟩ => ⟨S32768x9x66, .f32⟩
  | .hbm, ⟨70, _⟩ => ⟨S32768x9x336, .f32⟩
  | .hbm, ⟨71, _⟩ => ⟨S32768x3024, .f32⟩
  | _, _ => ⟨S32768x3024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_7 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_8 : Ref sig .tc := ⟨.hbm, 55, rfl⟩
abbrev main_v45 : Ref sig .tc := ⟨.hbm, 56, rfl⟩
abbrev main_cst_9 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_10 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]

class Facts₀ : Prop where
  shapeCasts_S32768x3024_S32768x9x336 : S32768x3024.ShapeCasts S32768x9x336
  slices_S32768x9x336_S32768x9x99_0_0_0 : S32768x9x336.Slices ![0, 0, 0] S32768x9x99
  shapeCasts_S32768x9x99_S32768x9x9x11 : S32768x9x99.ShapeCasts S32768x9x9x11
  reducesTo_S32768x9x9x11_S32768x9x9_d3 : S32768x9x9x11.ReducesTo [3] S32768x9x9
  h_S_ : 0 < S_.numel
  bcast_S_S32768x9x9 : S_.BroadcastsInDim S32768x9x9 (![] : Fin 0 → Fin S32768x9x9.rank)
  bcast_S32768x9x9_S32768x9x9x1_0_1_2 : S32768x9x9.BroadcastsInDim S32768x9x9x1 (![0, 1, 2] : Fin 3 → Fin S32768x9x9x1.rank)
  bcast_S32768x9x9x1_S32768x9x9x11_0_1_2_3 : S32768x9x9x1.BroadcastsInDim S32768x9x9x11 (![0, 1, 2, 3] : Fin 4 → Fin S32768x9x9x11.rank)
  shapeCasts_S32768x9x9x11_S32768x9x99 : S32768x9x9x11.ShapeCasts S32768x9x99
  slices_S32768x9x336_S32768x9x99_0_0_99 : S32768x9x336.Slices ![0, 0, 99] S32768x9x99
  slices_S32768x9x336_S32768x9x72_0_0_198 : S32768x9x336.Slices ![0, 0, 198] S32768x9x72
  shapeCasts_S32768x9x72_S32768x9x9x8 : S32768x9x72.ShapeCasts S32768x9x9x8
  reducesTo_S32768x9x9x8_S32768x9x9_d3 : S32768x9x9x8.ReducesTo [3] S32768x9x9
  bcast_S32768x9x9x1_S32768x9x9x8_0_1_2_3 : S32768x9x9x1.BroadcastsInDim S32768x9x9x8 (![0, 1, 2, 3] : Fin 4 → Fin S32768x9x9x8.rank)
  shapeCasts_S32768x9x9x8_S32768x9x72 : S32768x9x9x8.ShapeCasts S32768x9x72
  slices_S32768x9x336_S32768x9x66_0_0_270 : S32768x9x336.Slices ![0, 0, 270] S32768x9x66
  shapeCasts_S32768x9x66_S32768x9x6x11 : S32768x9x66.ShapeCasts S32768x9x6x11
  reducesTo_S32768x9x6x11_S32768x9x6_d3 : S32768x9x6x11.ReducesTo [3] S32768x9x6
  bcast_S_S32768x9x6 : S_.BroadcastsInDim S32768x9x6 (![] : Fin 0 → Fin S32768x9x6.rank)
  bcast_S32768x9x6_S32768x9x6x1_0_1_2 : S32768x9x6.BroadcastsInDim S32768x9x6x1 (![0, 1, 2] : Fin 3 → Fin S32768x9x6x1.rank)
  bcast_S32768x9x6x1_S32768x9x6x11_0_1_2_3 : S32768x9x6x1.BroadcastsInDim S32768x9x6x11 (![0, 1, 2, 3] : Fin 4 → Fin S32768x9x6x11.rank)
  shapeCasts_S32768x9x6x11_S32768x9x66 : S32768x9x6x11.ShapeCasts S32768x9x66
  concatenates_S32768x9x99_S32768x9x99_S32768x9x72_S32768x9x66_S32768x9x336_d2 : Shape.Concatenates [S32768x9x99, S32768x9x99, S32768x9x72, S32768x9x66] S32768x9x336 2
  shapeCasts_S32768x9x336_S32768x3024 : S32768x9x336.ShapeCasts S32768x3024

variable [Facts₀]

class Facts : Prop extends Facts₀ where

variable [Facts]
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.SegmentRows.lean ====
/-
  One segment of the row, on either side, read at an index.

  A segment is `w = r · c` consecutive columns of a row, read as `r` groups of `c` entries; each group is
  softmaxed by itself. The vector program works on a block of 256 rows and 3024 columns: it cuts the segment
  at column `o`, reshapes [256, w] to [256, r, c], takes the softmax along the last axis and reshapes back.
  The host program works on all 32768 rows, reshaped [32768, 9, 336] (nine macro-blocks of 336 columns): it cuts
  the segment at offset `off` inside every macro-block, reshapes [32768, 9, w] to [32768, 9, r, c], takes the
  softmax along the last axis and reshapes back. Entry (p, q) of the vector result, `q < w`, is the softmax of
  the group of `c` columns starting at `o + (q / c) · c` of row `p`, at member `q % c`; entry (R, b, q) of the
  host result is the softmax of the group starting at column `336 · b + off + (q / c) · c` of row `R`, at the same
  member. Only index arithmetic is used: a row-major index is split by division and remainder.
  Last, the four host segments joined along the macro-block axis and the result reshaped to [32768, 3024]: column
  `j = 336 · b + off + q` of row `R` is entry (R, b, q) of the segment whose span holds `off + q`.
-/
import proofs.«135202_j77635828842932_1_alg».proof.Proof.LibLastAxisSoftmax
import Idealize.ShloMosaic.Lib.ValueLayout

noncomputable section

namespace Cert.SegmentRows

open Idealize.ShloMosaic Idealize.ShloMosaic.ValueIdx Idealize.ShloMosaic.LastAxisSoftmax

/-! ## Segments of 9 groups of 11 -/

/-- The vector program's segment of 99 columns at column `o` of a [256, 3024] block, at (p, q). -/
theorem vecSegment_9x11 (v0 : (⟨2, ![256, 3024]⟩ : Shape).Idx → EReal) (o : Nat) (ho : o + 99 ≤ 3024)
    (hs : (⟨2, ![256, 3024]⟩ : Shape).Slices ![0, o] ⟨2, ![256, 99]⟩)
    (hc1 : (⟨2, ![256, 99]⟩ : Shape).ShapeCasts ⟨3, ![256, 9, 11]⟩)
    (hr : (⟨3, ![256, 9, 11]⟩ : Shape).Reduces [2] ⟨2, ![256, 9]⟩)
    (hc : (⟨2, ![256, 9]⟩ : Shape).ShapeCasts ⟨3, ![256, 9, 1]⟩)
    (hb : (⟨3, ![256, 9, 1]⟩ : Shape).Broadcasts ⟨3, ![256, 9, 11]⟩)
    (hφ : FKind.Formats .f32) (hmax : (0xFF800000#32 : BitVec 32) = FKind.maximumf.neutral .f32 hφ)
    (hadd : (0x00000000#32 : BitVec 32) = FKind.add.neutral .f32 hφ)
    (hc2 : (⟨3, ![256, 9, 11]⟩ : Shape).ShapeCasts ⟨2, ![256, 99]⟩)
    (p : Fin 256) (q : Fin 99) :
    shapeCast ⟨2, ![256, 99]⟩ (vecSoftmax3 (F := Ideal)
        (shapeCast ⟨3, ![256, 9, 11]⟩ (extractStridedSlice ⟨2, ![256, 99]⟩ ![0, o] v0 hs) hc1) hr hc hb hφ hmax hadd) hc2 (ix2 p q)
      = softmaxAt (fun k : Fin 11 => v0 (ix2 p ⟨o + q.val / 11 * 11 + k.val, by have := q.isLt; have := k.isLt; omega⟩))
          ⟨q.val % 11, Nat.mod_lt _ (by decide)⟩ := by
  have hq := q.isLt
  rw [shapeCast_apply _ hc2 (ix2 p q) (ix3 p (⟨q.val / 11, by omega⟩ : Fin 9) (⟨q.val % 11, Nat.mod_lt _ (by decide)⟩ : Fin 11)) (by
      rw [Shape.rowMajor_val_three, Shape.rowMajor_val_two]
      show (p.val * 9 + q.val / 11) * 11 + q.val % 11 = p.val * 99 + q.val
      omega),
    vecSoftmax3_apply]
  refine congrArg (fun f : Fin 11 → EReal => softmaxAt f _) (funext fun k => ?_)
  have hk := k.isLt
  rw [shapeCast_apply _ hc1 (ix3 p (⟨q.val / 11, by omega⟩ : Fin 9) k) (ix2 p (⟨q.val / 11 * 11 + k.val, by omega⟩ : Fin 99)) (by
      rw [Shape.rowMajor_val_two, Shape.rowMajor_val_three]
      show p.val * 99 + (q.val / 11 * 11 + k.val) = (p.val * 9 + q.val / 11) * 11 + k.val
      omega)]
  exact slice2_axis1_apply o v0 hs p _ _ (Nat.add_assoc _ _ _)

/-- The host program's segment of 99 columns at offset `off` of every macro-block, at (R, b, q). -/
theorem hostSegment_9x11 (x : (⟨2, ![32768, 3024]⟩ : Shape).Idx → EReal) (off : Nat) (hoff : off + 99 ≤ 336)
    (hc0 : (⟨2, ![32768, 3024]⟩ : Shape).ShapeCasts ⟨3, ![32768, 9, 336]⟩)
    (hs : (⟨3, ![32768, 9, 336]⟩ : Shape).Slices ![0, 0, off] ⟨3, ![32768, 9, 99]⟩)
    (hc1 : (⟨3, ![32768, 9, 99]⟩ : Shape).ShapeCasts ⟨4, ![32768, 9, 9, 11]⟩)
    (hred : (⟨4, ![32768, 9, 9, 11]⟩ : Shape).ReducesTo [3] ⟨3, ![32768, 9, 9]⟩)
    (hr : (⟨4, ![32768, 9, 9, 11]⟩ : Shape).Reduces [3] ⟨3, ![32768, 9, 9]⟩)
    (hu : 0 < (⟨0, ![]⟩ : Shape).numel)
    (h0 : (⟨0, ![]⟩ : Shape).BroadcastsInDim ⟨3, ![32768, 9, 9]⟩ (![] : Fin 0 → Fin 3))
    (h1 : (⟨3, ![32768, 9, 9]⟩ : Shape).BroadcastsInDim ⟨4, ![32768, 9, 9, 1]⟩ (![0, 1, 2] : Fin 3 → Fin 4))
    (h2 : (⟨4, ![32768, 9, 9, 1]⟩ : Shape).BroadcastsInDim ⟨4, ![32768, 9, 9, 11]⟩ (![0, 1, 2, 3] : Fin 4 → Fin 4))
    (hc2 : (⟨4, ![32768, 9, 9, 11]⟩ : Shape).ShapeCasts ⟨3, ![32768, 9, 99]⟩)
    (R : Fin 32768) (b : Fin 9) (q : Fin 99) :
    shapeCast ⟨3, ![32768, 9, 99]⟩ (hostSoftmax4 (F := Ideal)
        (shapeCast ⟨4, ![32768, 9, 9, 11]⟩ (extractStridedSlice ⟨3, ![32768, 9, 99]⟩ ![0, 0, off]
          (shapeCast ⟨3, ![32768, 9, 336]⟩ x hc0) hs) hc1) hred hu h0 h1 h2) hc2 (ix3 R b q)
      = softmaxAt (fun k : Fin 11 => x (ix2 R ⟨b.val * 336 + off + q.val / 11 * 11 + k.val, by
            have := q.isLt; have := k.isLt; have := b.isLt; omega⟩))
          ⟨q.val % 11, Nat.mod_lt _ (by decide)⟩ := by
  have hq := q.isLt
  have hb' := b.isLt
  rw [shapeCast_apply _ hc2 (ix3 R b q) (ix4 R b (⟨q.val / 11, by omega⟩ : Fin 9) (⟨q.val % 11, Nat.mod_lt _ (by decide)⟩ : Fin 11)) (by
      rw [Shape.rowMajor_val_four, Shape.rowMajor_val_three]
      show ((R.val * 9 + b.val) * 9 + q.val / 11) * 11 + q.val % 11 = (R.val * 9 + b.val) * 99 + q.val
      omega),
    hostSoftmax4_apply _ hred hr]
  refine congrArg (fun f : Fin 11 → EReal => softmaxAt f _) (funext fun k => ?_)
  have hk := k.isLt
  rw [shapeCast_apply _ hc1 (ix4 R b (⟨q.val / 11, by omega⟩ : Fin 9) k) (ix3 R b (⟨q.val / 11 * 11 + k.val, by omega⟩ : Fin 99)) (by
      rw [Shape.rowMajor_val_three, Shape.rowMajor_val_four]
      show (R.val * 9 + b.val) * 99 + (q.val / 11 * 11 + k.val) = ((R.val * 9 + b.val) * 9 + q.val / 11) * 11 + k.val
      omega),
    extractStridedSlice_apply _ _ hs _ (ix3 R b (⟨off + (q.val / 11 * 11 + k.val), by omega⟩ : Fin 336)) (fun a => by
      match a with
      | ⟨0, _⟩ => exact (Nat.zero_add _).symm
      | ⟨1, _⟩ => exact (Nat.zero_add _).symm
      | ⟨2, _⟩ => rfl)]
  exact shapeCast_apply x hc0 _ (ix2 R ⟨b.val * 336 + off + q.val / 11 * 11 + k.val, by omega⟩) (by
      rw [Shape.rowMajor_val_two, Shape.rowMajor_val_three]
      show R.val * 3024 + (b.val * 336 + off + q.val / 11 * 11 + k.val) = (R.val * 9 + b.val) * 336 + (off + (q.val / 11 * 11 + k.val))
      omega)

/-! ## Segments of 9 groups of 8 -/

/-- The vector program's segment of 72 columns at column `o` of a [256, 3024] block, at (p, q). -/
theorem vecSegment_9x8 (v0 : (⟨2, ![256, 3024]⟩ : Shape).Idx → EReal) (o : Nat) (ho : o + 72 ≤ 3024)
    (hs : (⟨2, ![256, 3024]⟩ : Shape).Slices ![0, o] ⟨2, ![256, 72]⟩)
    (hc1 : (⟨2, ![256, 72]⟩ : Shape).ShapeCasts ⟨3, ![256, 9, 8]⟩)
    (hr : (⟨3, ![256, 9, 8]⟩ : Shape).Reduces [2] ⟨2, ![256, 9]⟩)
    (hc : (⟨2, ![256, 9]⟩ : Shape).ShapeCasts ⟨3, ![256, 9, 1]⟩)
    (hb : (⟨3, ![256, 9, 1]⟩ : Shape).Broadcasts ⟨3, ![256, 9, 8]⟩)
    (hφ : FKind.Formats .f32) (hmax : (0xFF800000#32 : BitVec 32) = FKind.maximumf.neutral .f32 hφ)
    (hadd : (0x00000000#32 : BitVec 32) = FKind.add.neutral .f32 hφ)
    (hc2 : (⟨3, ![256, 9, 8]⟩ : Shape).ShapeCasts ⟨2, ![256, 72]⟩)
    (p : Fin 256) (q : Fin 72) :
    shapeCast ⟨2, ![256, 72]⟩ (vecSoftmax3 (F := Ideal)
        (shapeCast ⟨3, ![256, 9, 8]⟩ (extractStridedSlice ⟨2, ![256, 72]⟩ ![0, o] v0 hs) hc1) hr hc hb hφ hmax hadd) hc2 (ix2 p q)
      = softmaxAt (fun k : Fin 8 => v0 (ix2 p ⟨o + q.val / 8 * 8 + k.val, by have := q.isLt; have := k.isLt; omega⟩))
          ⟨q.val % 8, Nat.mod_lt _ (by decide)⟩ := by
  have hq := q.isLt
  rw [shapeCast_apply _ hc2 (ix2 p q) (ix3 p (⟨q.val / 8, by omega⟩ : Fin 9) (⟨q.val % 8, Nat.mod_lt _ (by decide)⟩ : Fin 8)) (by
      rw [Shape.rowMajor_val_three, Shape.rowMajor_val_two]
      show (p.val * 9 + q.val / 8) * 8 + q.val % 8 = p.val * 72 + q.val
      omega),
    vecSoftmax3_apply]
  refine congrArg (fun f : Fin 8 → EReal => softmaxAt f _) (funext fun k => ?_)
  have hk := k.isLt
  rw [shapeCast_apply _ hc1 (ix3 p (⟨q.val / 8, by omega⟩ : Fin 9) k) (ix2 p (⟨q.val / 8 * 8 + k.val, by omega⟩ : Fin 72)) (by
      rw [Shape.rowMajor_val_two, Shape.rowMajor_val_three]
      show p.val * 72 + (q.val / 8 * 8 + k.val) = (p.val * 9 + q.val / 8) * 8 + k.val
      omega)]
  exact slice2_axis1_apply o v0 hs p _ _ (Nat.add_assoc _ _ _)

/-- The host program's segment of 72 columns at offset `off` of every macro-block, at (R, b, q). -/
theorem hostSegment_9x8 (x : (⟨2, ![32768, 3024]⟩ : Shape).Idx → EReal) (off : Nat) (hoff : off + 72 ≤ 336)
    (hc0 : (⟨2, ![32768, 3024]⟩ : Shape).ShapeCasts ⟨3, ![32768, 9, 336]⟩)
    (hs : (⟨3, ![32768, 9, 336]⟩ : Shape).Slices ![0, 0, off] ⟨3, ![32768, 9, 72]⟩)
    (hc1 : (⟨3, ![32768, 9, 72]⟩ : Shape).ShapeCasts ⟨4, ![32768, 9, 9, 8]⟩)
    (hred : (⟨4, ![32768, 9, 9, 8]⟩ : Shape).ReducesTo [3] ⟨3, ![32768, 9, 9]⟩)
    (hr : (⟨4, ![32768, 9, 9, 8]⟩ : Shape).Reduces [3] ⟨3, ![32768, 9, 9]⟩)
    (hu : 0 < (⟨0, ![]⟩ : Shape).numel)
    (h0 : (⟨0, ![]⟩ : Shape).BroadcastsInDim ⟨3, ![32768, 9, 9]⟩ (![] : Fin 0 → Fin 3))
    (h1 : (⟨3, ![32768, 9, 9]⟩ : Shape).BroadcastsInDim ⟨4, ![32768, 9, 9, 1]⟩ (![0, 1, 2] : Fin 3 → Fin 4))
    (h2 : (⟨4, ![32768, 9, 9, 1]⟩ : Shape).BroadcastsInDim ⟨4, ![32768, 9, 9, 8]⟩ (![0, 1, 2, 3] : Fin 4 → Fin 4))
    (hc2 : (⟨4, ![32768, 9, 9, 8]⟩ : Shape).ShapeCasts ⟨3, ![32768, 9, 72]⟩)
    (R : Fin 32768) (b : Fin 9) (q : Fin 72) :
    shapeCast ⟨3, ![32768, 9, 72]⟩ (hostSoftmax4 (F := Ideal)
        (shapeCast ⟨4, ![32768, 9, 9, 8]⟩ (extractStridedSlice ⟨3, ![32768, 9, 72]⟩ ![0, 0, off]
          (shapeCast ⟨3, ![32768, 9, 336]⟩ x hc0) hs) hc1) hred hu h0 h1 h2) hc2 (ix3 R b q)
      = softmaxAt (fun k : Fin 8 => x (ix2 R ⟨b.val * 336 + off + q.val / 8 * 8 + k.val, by
            have := q.isLt; have := k.isLt; have := b.isLt; omega⟩))
          ⟨q.val % 8, Nat.mod_lt _ (by decide)⟩ := by
  have hq := q.isLt
  have hb' := b.isLt
  rw [shapeCast_apply _ hc2 (ix3 R b q) (ix4 R b (⟨q.val / 8, by omega⟩ : Fin 9) (⟨q.val % 8, Nat.mod_lt _ (by decide)⟩ : Fin 8)) (by
      rw [Shape.rowMajor_val_four, Shape.rowMajor_val_three]
      show ((R.val * 9 + b.val) * 9 + q.val / 8) * 8 + q.val % 8 = (R.val * 9 + b.val) * 72 + q.val
      omega),
    hostSoftmax4_apply _ hred hr]
  refine congrArg (fun f : Fin 8 → EReal => softmaxAt f _) (funext fun k => ?_)
  have hk := k.isLt
  rw [shapeCast_apply _ hc1 (ix4 R b (⟨q.val / 8, by omega⟩ : Fin 9) k) (ix3 R b (⟨q.val / 8 * 8 + k.val, by omega⟩ : Fin 72)) (by
      rw [Shape.rowMajor_val_three, Shape.rowMajor_val_four]
      show (R.val * 9 + b.val) * 72 + (q.val / 8 * 8 + k.val) = ((R.val * 9 + b.val) * 9 + q.val / 8) * 8 + k.val
      omega),
    extractStridedSlice_apply _ _ hs _ (ix3 R b (⟨off + (q.val / 8 * 8 + k.val), by omega⟩ : Fin 336)) (fun a => by
      match a with
      | ⟨0, _⟩ => exact (Nat.zero_add _).symm
      | ⟨1, _⟩ => exact (Nat.zero_add _).symm
      | ⟨2, _⟩ => rfl)]
  exact shapeCast_apply x hc0 _ (ix2 R ⟨b.val * 336 + off + q.val / 8 * 8 + k.val, by omega⟩) (by
      rw [Shape.rowMajor_val_two, Shape.rowMajor_val_three]
      show R.val * 3024 + (b.val * 336 + off + q.val / 8 * 8 + k.val) = (R.val * 9 + b.val) * 336 + (off + (q.val / 8 * 8 + k.val))
      omega)

/-! ## Segments of 6 groups of 11 -/

/-- The vector program's segment of 66 columns at column `o` of a [256, 3024] block, at (p, q). -/
theorem vecSegment_6x11 (v0 : (⟨2, ![256, 3024]⟩ : Shape).Idx → EReal) (o : Nat) (ho : o + 66 ≤ 3024)
    (hs : (⟨2, ![256, 3024]⟩ : Shape).Slices ![0, o] ⟨2, ![256, 66]⟩)
    (hc1 : (⟨2, ![256, 66]⟩ : Shape).ShapeCasts ⟨3, ![256, 6, 11]⟩)
    (hr : (⟨3, ![256, 6, 11]⟩ : Shape).Reduces [2] ⟨2, ![256, 6]⟩)
    (hc : (⟨2, ![256, 6]⟩ : Shape).ShapeCasts ⟨3, ![256, 6, 1]⟩)
    (hb : (⟨3, ![256, 6, 1]⟩ : Shape).Broadcasts ⟨3, ![256, 6, 11]⟩)
    (hφ : FKind.Formats .f32) (hmax : (0xFF800000#32 : BitVec 32) = FKind.maximumf.neutral .f32 hφ)
    (hadd : (0x00000000#32 : BitVec 32) = FKind.add.neutral .f32 hφ)
    (hc2 : (⟨3, ![256, 6, 11]⟩ : Shape).ShapeCasts ⟨2, ![256, 66]⟩)
    (p : Fin 256) (q : Fin 66) :
    shapeCast ⟨2, ![256, 66]⟩ (vecSoftmax3 (F := Ideal)
        (shapeCast ⟨3, ![256, 6, 11]⟩ (extractStridedSlice ⟨2, ![256, 66]⟩ ![0, o] v0 hs) hc1) hr hc hb hφ hmax hadd) hc2 (ix2 p q)
      = softmaxAt (fun k : Fin 11 => v0 (ix2 p ⟨o + q.val / 11 * 11 + k.val, by have := q.isLt; have := k.isLt; omega⟩))
          ⟨q.val % 11, Nat.mod_lt _ (by decide)⟩ := by
  have hq := q.isLt
  rw [shapeCast_apply _ hc2 (ix2 p q) (ix3 p (⟨q.val / 11, by omega⟩ : Fin 6) (⟨q.val % 11, Nat.mod_lt _ (by decide)⟩ : Fin 11)) (by
      rw [Shape.rowMajor_val_three, Shape.rowMajor_val_two]
      show (p.val * 6 + q.val / 11) * 11 + q.val % 11 = p.val * 66 + q.val
      omega),
    vecSoftmax3_apply]
  refine congrArg (fun f : Fin 11 → EReal => softmaxAt f _) (funext fun k => ?_)
  have hk := k.isLt
  rw [shapeCast_apply _ hc1 (ix3 p (⟨q.val / 11, by omega⟩ : Fin 6) k) (ix2 p (⟨q.val / 11 * 11 + k.val, by omega⟩ : Fin 66)) (by
      rw [Shape.rowMajor_val_two, Shape.rowMajor_val_three]
      show p.val * 66 + (q.val / 11 * 11 + k.val) = (p.val * 6 + q.val / 11) * 11 + k.val
      omega)]
  exact slice2_axis1_apply o v0 hs p _ _ (Nat.add_assoc _ _ _)

/-- The host program's segment of 66 columns at offset `off` of every macro-block, at (R, b, q). -/
theorem hostSegment_6x11 (x : (⟨2, ![32768, 3024]⟩ : Shape).Idx → EReal) (off : Nat) (hoff : off + 66 ≤ 336)
    (hc0 : (⟨2, ![32768, 3024]⟩ : Shape).ShapeCasts ⟨3, ![32768, 9, 336]⟩)
    (hs : (⟨3, ![32768, 9, 336]⟩ : Shape).Slices ![0, 0, off] ⟨3, ![32768, 9, 66]⟩)
    (hc1 : (⟨3, ![32768, 9, 66]⟩ : Shape).ShapeCasts ⟨4, ![32768, 9, 6, 11]⟩)
    (hred : (⟨4, ![32768, 9, 6, 11]⟩ : Shape).ReducesTo [3] ⟨3, ![32768, 9, 6]⟩)
    (hr : (⟨4, ![32768, 9, 6, 11]⟩ : Shape).Reduces [3] ⟨3, ![32768, 9, 6]⟩)
    (hu : 0 < (⟨0, ![]⟩ : Shape).numel)
    (h0 : (⟨0, ![]⟩ : Shape).BroadcastsInDim ⟨3, ![32768, 9, 6]⟩ (![] : Fin 0 → Fin 3))
    (h1 : (⟨3, ![32768, 9, 6]⟩ : Shape).BroadcastsInDim ⟨4, ![32768, 9, 6, 1]⟩ (![0, 1, 2] : Fin 3 → Fin 4))
    (h2 : (⟨4, ![32768, 9, 6, 1]⟩ : Shape).BroadcastsInDim ⟨4, ![32768, 9, 6, 11]⟩ (![0, 1, 2, 3] : Fin 4 → Fin 4))
    (hc2 : (⟨4, ![32768, 9, 6, 11]⟩ : Shape).ShapeCasts ⟨3, ![32768, 9, 66]⟩)
    (R : Fin 32768) (b : Fin 9) (q : Fin 66) :
    shapeCast ⟨3, ![32768, 9, 66]⟩ (hostSoftmax4 (F := Ideal)
        (shapeCast ⟨4, ![32768, 9, 6, 11]⟩ (extractStridedSlice ⟨3, ![32768, 9, 66]⟩ ![0, 0, off]
          (shapeCast ⟨3, ![32768, 9, 336]⟩ x hc0) hs) hc1) hred hu h0 h1 h2) hc2 (ix3 R b q)
      = softmaxAt (fun k : Fin 11 => x (ix2 R ⟨b.val * 336 + off + q.val / 11 * 11 + k.val, by
            have := q.isLt; have := k.isLt; have := b.isLt; omega⟩))
          ⟨q.val % 11, Nat.mod_lt _ (by decide)⟩ := by
  have hq := q.isLt
  have hb' := b.isLt
  rw [shapeCast_apply _ hc2 (ix3 R b q) (ix4 R b (⟨q.val / 11, by omega⟩ : Fin 6) (⟨q.val % 11, Nat.mod_lt _ (by decide)⟩ : Fin 11)) (by
      rw [Shape.rowMajor_val_four, Shape.rowMajor_val_three]
      show ((R.val * 9 + b.val) * 6 + q.val / 11) * 11 + q.val % 11 = (R.val * 9 + b.val) * 66 + q.val
      omega),
    hostSoftmax4_apply _ hred hr]
  refine congrArg (fun f : Fin 11 → EReal => softmaxAt f _) (funext fun k => ?_)
  have hk := k.isLt
  rw [shapeCast_apply _ hc1 (ix4 R b (⟨q.val / 11, by omega⟩ : Fin 6) k) (ix3 R b (⟨q.val / 11 * 11 + k.val, by omega⟩ : Fin 66)) (by
      rw [Shape.rowMajor_val_three, Shape.rowMajor_val_four]
      show (R.val * 9 + b.val) * 66 + (q.val / 11 * 11 + k.val) = ((R.val * 9 + b.val) * 6 + q.val / 11) * 11 + k.val
      omega),
    extractStridedSlice_apply _ _ hs _ (ix3 R b (⟨off + (q.val / 11 * 11 + k.val), by omega⟩ : Fin 336)) (fun a => by
      match a with
      | ⟨0, _⟩ => exact (Nat.zero_add _).symm
      | ⟨1, _⟩ => exact (Nat.zero_add _).symm
      | ⟨2, _⟩ => rfl)]
  exact shapeCast_apply x hc0 _ (ix2 R ⟨b.val * 336 + off + q.val / 11 * 11 + k.val, by omega⟩) (by
      rw [Shape.rowMajor_val_two, Shape.rowMajor_val_three]
      show R.val * 3024 + (b.val * 336 + off + q.val / 11 * 11 + k.val) = (R.val * 9 + b.val) * 336 + (off + (q.val / 11 * 11 + k.val))
      omega)

/-! ## The four segments joined along the macro-block's columns, the macro-blocks laid side by side -/

/-- Column `j = 336 · b + 0 + q`, `q < 99`, of row `R` of the joined result is entry (R, b, q) of segment 0. -/
theorem joined_at_0 {α : Type} (A : (⟨3, ![32768, 9, 99]⟩ : Shape).Idx → α) (B : (⟨3, ![32768, 9, 99]⟩ : Shape).Idx → α)
    (C : (⟨3, ![32768, 9, 72]⟩ : Shape).Idx → α) (D : (⟨3, ![32768, 9, 66]⟩ : Shape).Idx → α)
    (hcat : Shape.Concatenates [(⟨3, ![32768, 9, 99]⟩ : Shape), ⟨3, ![32768, 9, 99]⟩, ⟨3, ![32768, 9, 72]⟩, ⟨3, ![32768, 9, 66]⟩]
      ⟨3, ![32768, 9, 336]⟩ 2)
    (hc : (⟨3, ![32768, 9, 336]⟩ : Shape).ShapeCasts ⟨2, ![32768, 3024]⟩)
    (R : Fin 32768) (b : Fin 9) (q : Fin 99) (j : Fin 3024) (hj : j.val = b.val * 336 + 0 + q.val) :
    shapeCast ⟨2, ![32768, 3024]⟩ (concatenate ⟨3, ![32768, 9, 336]⟩ 2
        [⟨⟨3, ![32768, 9, 99]⟩, A⟩, ⟨⟨3, ![32768, 9, 99]⟩, B⟩, ⟨⟨3, ![32768, 9, 72]⟩, C⟩, ⟨⟨3, ![32768, 9, 66]⟩, D⟩] hcat) hc (ix2 R j)
      = A (ix3 R b q) := by
  have hq := q.isLt
  have hb' := b.isLt
  rw [shapeCast_apply _ hc (ix2 R j) (ix3 R b (⟨0 + q.val, by omega⟩ : Fin 336)) (by
      rw [Shape.rowMajor_val_three, Shape.rowMajor_val_two]
      show (R.val * 9 + b.val) * 336 + (0 + q.val) = R.val * 3024 + j.val
      omega)]
  exact concatenate_apply_piece 2
    [⟨⟨3, ![32768, 9, 99]⟩, A⟩, ⟨⟨3, ![32768, 9, 99]⟩, B⟩, ⟨⟨3, ![32768, 9, 72]⟩, C⟩, ⟨⟨3, ![32768, 9, 66]⟩, D⟩] hcat _ 0 (by simp) _ A rfl rfl 0 rfl (ix3 R b q)
    (fun d hd => by
      match d with
      | ⟨0, _⟩ => rfl
      | ⟨1, _⟩ => rfl
      | ⟨2, _⟩ => exact absurd rfl hd)
    rfl

/-- Column `j = 336 · b + 99 + q`, `q < 99`, of row `R` of the joined result is entry (R, b, q) of segment 1. -/
theorem joined_at_1 {α : Type} (A : (⟨3, ![32768, 9, 99]⟩ : Shape).Idx → α) (B : (⟨3, ![32768, 9, 99]⟩ : Shape).Idx → α)
    (C : (⟨3, ![32768, 9, 72]⟩ : Shape).Idx → α) (D : (⟨3, ![32768, 9, 66]⟩ : Shape).Idx → α)
    (hcat : Shape.Concatenates [(⟨3, ![32768, 9, 99]⟩ : Shape), ⟨3, ![32768, 9, 99]⟩, ⟨3, ![32768, 9, 72]⟩, ⟨3, ![32768, 9, 66]⟩]
      ⟨3, ![32768, 9, 336]⟩ 2)
    (hc : (⟨3, ![32768, 9, 336]⟩ : Shape).ShapeCasts ⟨2, ![32768, 3024]⟩)
    (R : Fin 32768) (b : Fin 9) (q : Fin 99) (j : Fin 3024) (hj : j.val = b.val * 336 + 99 + q.val) :
    shapeCast ⟨2, ![32768, 3024]⟩ (concatenate ⟨3, ![32768, 9, 336]⟩ 2
        [⟨⟨3, ![32768, 9, 99]⟩, A⟩, ⟨⟨3, ![32768, 9, 99]⟩, B⟩, ⟨⟨3, ![32768, 9, 72]⟩, C⟩, ⟨⟨3, ![32768, 9, 66]⟩, D⟩] hcat) hc (ix2 R j)
      = B (ix3 R b q) := by
  have hq := q.isLt
  have hb' := b.isLt
  rw [shapeCast_apply _ hc (ix2 R j) (ix3 R b (⟨99 + q.val, by omega⟩ : Fin 336)) (by
      rw [Shape.rowMajor_val_three, Shape.rowMajor_val_two]
      show (R.val * 9 + b.val) * 336 + (99 + q.val) = R.val * 3024 + j.val
      omega)]
  exact concatenate_apply_piece 2
    [⟨⟨3, ![32768, 9, 99]⟩, A⟩, ⟨⟨3, ![32768, 9, 99]⟩, B⟩, ⟨⟨3, ![32768, 9, 72]⟩, C⟩, ⟨⟨3, ![32768, 9, 66]⟩, D⟩] hcat _ 1 (by simp) _ B rfl rfl 99 rfl (ix3 R b q)
    (fun d hd => by
      match d with
      | ⟨0, _⟩ => rfl
      | ⟨1, _⟩ => rfl
      | ⟨2, _⟩ => exact absurd rfl hd)
    rfl

/-- Column `j = 336 · b + 198 + q`, `q < 72`, of row `R` of the joined result is entry (R, b, q) of segment 2. -/
theorem joined_at_2 {α : Type} (A : (⟨3, ![32768, 9, 99]⟩ : Shape).Idx → α) (B : (⟨3, ![32768, 9, 99]⟩ : Shape).Idx → α)
    (C : (⟨3, ![32768, 9, 72]⟩ : Shape).Idx → α) (D : (⟨3, ![32768, 9, 66]⟩ : Shape).Idx → α)
    (hcat : Shape.Concatenates [(⟨3, ![32768, 9, 99]⟩ : Shape), ⟨3, ![32768, 9, 99]⟩, ⟨3, ![32768, 9, 72]⟩, ⟨3, ![32768, 9, 66]⟩]
      ⟨3, ![32768, 9, 336]⟩ 2)
    (hc : (⟨3, ![32768, 9, 336]⟩ : Shape).ShapeCasts ⟨2, ![32768, 3024]⟩)
    (R : Fin 32768) (b : Fin 9) (q : Fin 72) (j : Fin 3024) (hj : j.val = b.val * 336 + 198 + q.val) :
    shapeCast ⟨2, ![32768, 3024]⟩ (concatenate ⟨3, ![32768, 9, 336]⟩ 2
        [⟨⟨3, ![32768, 9, 99]⟩, A⟩, ⟨⟨3, ![32768, 9, 99]⟩, B⟩, ⟨⟨3, ![32768, 9, 72]⟩, C⟩, ⟨⟨3, ![32768, 9, 66]⟩, D⟩] hcat) hc (ix2 R j)
      = C (ix3 R b q) := by
  have hq := q.isLt
  have hb' := b.isLt
  rw [shapeCast_apply _ hc (ix2 R j) (ix3 R b (⟨198 + q.val, by omega⟩ : Fin 336)) (by
      rw [Shape.rowMajor_val_three, Shape.rowMajor_val_two]
      show (R.val * 9 + b.val) * 336 + (198 + q.val) = R.val * 3024 + j.val
      omega)]
  exact concatenate_apply_piece 2
    [⟨⟨3, ![32768, 9, 99]⟩, A⟩, ⟨⟨3, ![32768, 9, 99]⟩, B⟩, ⟨⟨3, ![32768, 9, 72]⟩, C⟩, ⟨⟨3, ![32768, 9, 66]⟩, D⟩] hcat _ 2 (by simp) _ C rfl rfl 198 rfl (ix3 R b q)
    (fun d hd => by
      match d with
      | ⟨0, _⟩ => rfl
      | ⟨1, _⟩ => rfl
      | ⟨2, _⟩ => exact absurd rfl hd)
    rfl

/-- Column `j = 336 · b + 270 + q`, `q < 66`, of row `R` of the joined result is entry (R, b, q) of segment 3. -/
theorem joined_at_3 {α : Type} (A : (⟨3, ![32768, 9, 99]⟩ : Shape).Idx → α) (B : (⟨3, ![32768, 9, 99]⟩ : Shape).Idx → α)
    (C : (⟨3, ![32768, 9, 72]⟩ : Shape).Idx → α) (D : (⟨3, ![32768, 9, 66]⟩ : Shape).Idx → α)
    (hcat : Shape.Concatenates [(⟨3, ![32768, 9, 99]⟩ : Shape), ⟨3, ![32768, 9, 99]⟩, ⟨3, ![32768, 9, 72]⟩, ⟨3, ![32768, 9, 66]⟩]
      ⟨3, ![32768, 9, 336]⟩ 2)
    (hc : (⟨3, ![32768, 9, 336]⟩ : Shape).ShapeCasts ⟨2, ![32768, 3024]⟩)
    (R : Fin 32768) (b : Fin 9) (q : Fin 66) (j : Fin 3024) (hj : j.val = b.val * 336 + 270 + q.val) :
    shapeCast ⟨2, ![32768, 3024]⟩ (concatenate ⟨3, ![32768, 9, 336]⟩ 2
        [⟨⟨3, ![32768, 9, 99]⟩, A⟩, ⟨⟨3, ![32768, 9, 99]⟩, B⟩, ⟨⟨3, ![32768, 9, 72]⟩, C⟩, ⟨⟨3, ![32768, 9, 66]⟩, D⟩] hcat) hc (ix2 R j)
      = D (ix3 R b q) := by
  have hq := q.isLt
  have hb' := b.isLt
  rw [shapeCast_apply _ hc (ix2 R j) (ix3 R b (⟨270 + q.val, by omega⟩ : Fin 336)) (by
      rw [Shape.rowMajor_val_three, Shape.rowMajor_val_two]
      show (R.val * 9 + b.val) * 336 + (270 + q.val) = R.val * 3024 + j.val
      omega)]
  exact concatenate_apply_piece 2
    [⟨⟨3, ![32768, 9, 99]⟩, A⟩, ⟨⟨3, ![32768, 9, 99]⟩, B⟩, ⟨⟨3, ![32768, 9, 72]⟩, C⟩, ⟨⟨3, ![32768, 9, 66]⟩, D⟩] hcat _ 3 (by simp) _ D rfl rfl 270 rfl (ix3 R b q)
    (fun d hd => by
      match d with
      | ⟨0, _⟩ => rfl
      | ⟨1, _⟩ => rfl
      | ⟨2, _⟩ => exact absurd rfl hd)
    rfl

end Cert.SegmentRows

end
-- ==== Proof.RefValue.lean ====
/-
  The reference's result as one function of the argument array, and that function read at a column.

  The reference reshapes the [32768, 3024] array to nine macro-blocks of 336 columns, cuts each macro-block into
  four segments (99, 99, 72 and 66 columns at offsets 0, 99, 198 and 270), softmaxes every segment in groups of
  11, 11, 8 and 11 columns (`seg0` … `seg3`), joins the four results and reshapes back (`refFn`). At column
  `336 · b + off + q` of a row, `refFn` is the softmax of the group of columns that holds the column
  (`refFn_at_0` … `refFn_at_3`, one per segment).
-/
import proofs.«135202_j77635828842932_1_alg».proof.Proof.Gen.ReferenceIdeal
import proofs.«135202_j77635828842932_1_alg».proof.Proof.SegmentRows

noncomputable section

namespace Cert.ReferenceIdeal.RefValue

open Cert.ReferenceIdeal Cert.ReferenceIdeal.Gen Idealize.ShloMosaic Idealize.ShloMosaic.TcCoe Idealize.SL.Sem
open Idealize.ShloMosaic.ValueIdx Idealize.ShloMosaic.LastAxisSoftmax Cert.SegmentRows

variable {F : FTy → Type} [FloatOps F]

/-- Segment 0 of every macro-block (99 columns at offset 0), softmaxed in groups of 11. -/
def seg0 (x : FVec F S32768x3024 .f32) : FVec F S32768x9x99 .f32 :=
  shapeCast S32768x9x99 (hostSoftmax4 (shapeCast S32768x9x9x11 (extractStridedSlice S32768x9x99 ![0, 0, 0]
      (shapeCast S32768x9x336 x shapeCasts_S32768x3024_S32768x9x336) slices_S32768x9x336_S32768x9x99_0_0_0) shapeCasts_S32768x9x99_S32768x9x9x11)
      reducesTo_S32768x9x9x11_S32768x9x9_d3 h_S_ bcast_S_S32768x9x9 bcast_S32768x9x9_S32768x9x9x1_0_1_2 bcast_S32768x9x9x1_S32768x9x9x11_0_1_2_3)
    shapeCasts_S32768x9x9x11_S32768x9x99

/-- Segment 1 of every macro-block (99 columns at offset 99), softmaxed in groups of 11. -/
def seg1 (x : FVec F S32768x3024 .f32) : FVec F S32768x9x99 .f32 :=
  shapeCast S32768x9x99 (hostSoftmax4 (shapeCast S32768x9x9x11 (extractStridedSlice S32768x9x99 ![0, 0, 99]
      (shapeCast S32768x9x336 x shapeCasts_S32768x3024_S32768x9x336) slices_S32768x9x336_S32768x9x99_0_0_99) shapeCasts_S32768x9x99_S32768x9x9x11)
      reducesTo_S32768x9x9x11_S32768x9x9_d3 h_S_ bcast_S_S32768x9x9 bcast_S32768x9x9_S32768x9x9x1_0_1_2 bcast_S32768x9x9x1_S32768x9x9x11_0_1_2_3)
    shapeCasts_S32768x9x9x11_S32768x9x99

/-- Segment 2 of every macro-block (72 columns at offset 198), softmaxed in groups of 8. -/
def seg2 (x : FVec F S32768x3024 .f32) : FVec F S32768x9x72 .f32 :=
  shapeCast S32768x9x72 (hostSoftmax4 (shapeCast S32768x9x9x8 (extractStridedSlice S32768x9x72 ![0, 0, 198]
      (shapeCast S32768x9x336 x shapeCasts_S32768x3024_S32768x9x336) slices_S32768x9x336_S32768x9x72_0_0_198) shapeCasts_S32768x9x72_S32768x9x9x8)
      reducesTo_S32768x9x9x8_S32768x9x9_d3 h_S_ bcast_S_S32768x9x9 bcast_S32768x9x9_S32768x9x9x1_0_1_2 bcast_S32768x9x9x1_S32768x9x9x8_0_1_2_3)
    shapeCasts_S32768x9x9x8_S32768x9x72

/-- Segment 3 of every macro-block (66 columns at offset 270), softmaxed in groups of 11. -/
def seg3 (x : FVec F S32768x3024 .f32) : FVec F S32768x9x66 .f32 :=
  shapeCast S32768x9x66 (hostSoftmax4 (shapeCast S32768x9x6x11 (extractStridedSlice S32768x9x66 ![0, 0, 270]
      (shapeCast S32768x9x336 x shapeCasts_S32768x3024_S32768x9x336) slices_S32768x9x336_S32768x9x66_0_0_270) shapeCasts_S32768x9x66_S32768x9x6x11)
      reducesTo_S32768x9x6x11_S32768x9x6_d3 h_S_ bcast_S_S32768x9x6 bcast_S32768x9x6_S32768x9x6x1_0_1_2 bcast_S32768x9x6x1_S32768x9x6x11_0_1_2_3)
    shapeCasts_S32768x9x6x11_S32768x9x66

/-- The reference's result array as a function of its argument array: the four segments joined along the
    macro-block's columns, the macro-blocks laid side by side. -/
def refFn (x : FVec F S32768x3024 .f32) : FVec F S32768x3024 .f32 :=
  shapeCast S32768x3024 (concatenate S32768x9x336 2
    [⟨S32768x9x99, seg0 x⟩, ⟨S32768x9x99, seg1 x⟩, ⟨S32768x9x72, seg2 x⟩, ⟨S32768x9x66, seg3 x⟩]
    concatenates_S32768x9x99_S32768x9x99_S32768x9x72_S32768x9x66_S32768x9x336_d2) shapeCasts_S32768x9x336_S32768x3024

/-- Column `336 · b + 0 + q`, `q < 99`, of row `R`: the softmax of its group of 11. -/
theorem refFn_at_0 (x : FVec Ideal S32768x3024 .f32) (R : Fin 32768) (b : Fin 9) (q : Fin 99) (j : Fin 3024)
    (hj : j.val = b.val * 336 + 0 + q.val) :
    refFn x (ix2 R j) = softmaxAt (fun k : Fin 11 => x (ix2 R ⟨b.val * 336 + 0 + q.val / 11 * 11 + k.val, by
        have := q.isLt; have := k.isLt; have := b.isLt; omega⟩)) ⟨q.val % 11, Nat.mod_lt _ (by decide)⟩ := by
  unfold refFn
  refine (joined_at_0 _ _ _ _ _ _ R b q j hj).trans ?_
  unfold seg0
  exact hostSegment_9x11 x 0 (by decide) _ _ _ _ (by decide) _ _ _ _ _ R b q

/-- Column `336 · b + 99 + q`, `q < 99`, of row `R`: the softmax of its group of 11. -/
theorem refFn_at_1 (x : FVec Ideal S32768x3024 .f32) (R : Fin 32768) (b : Fin 9) (q : Fin 99) (j : Fin 3024)
    (hj : j.val = b.val * 336 + 99 + q.val) :
    refFn x (ix2 R j) = softmaxAt (fun k : Fin 11 => x (ix2 R ⟨b.val * 336 + 99 + q.val / 11 * 11 + k.val, by
        have := q.isLt; have := k.isLt; have := b.isLt; omega⟩)) ⟨q.val % 11, Nat.mod_lt _ (by decide)⟩ := by
  unfold refFn
  refine (joined_at_1 _ _ _ _ _ _ R b q j hj).trans ?_
  unfold seg1
  exact hostSegment_9x11 x 99 (by decide) _ _ _ _ (by decide) _ _ _ _ _ R b q

/-- Column `336 · b + 198 + q`, `q < 72`, of row `R`: the softmax of its group of 8. -/
theorem refFn_at_2 (x : FVec Ideal S32768x3024 .f32) (R : Fin 32768) (b : Fin 9) (q : Fin 72) (j : Fin 3024)
    (hj : j.val = b.val * 336 + 198 + q.val) :
    refFn x (ix2 R j) = softmaxAt (fun k : Fin 8 => x (ix2 R ⟨b.val * 336 + 198 + q.val / 8 * 8 + k.val, by
        have := q.isLt; have := k.isLt; have := b.isLt; omega⟩)) ⟨q.val % 8, Nat.mod_lt _ (by decide)⟩ := by
  unfold refFn
  refine (joined_at_2 _ _ _ _ _ _ R b q j hj).trans ?_
  unfold seg2
  exact hostSegment_9x8 x 198 (by decide) _ _ _ _ (by decide) _ _ _ _ _ R b q

/-- Column `336 · b + 270 + q`, `q < 66`, of row `R`: the softmax of its group of 11. -/
theorem refFn_at_3 (x : FVec Ideal S32768x3024 .f32) (R : Fin 32768) (b : Fin 9) (q : Fin 66) (j : Fin 3024)
    (hj : j.val = b.val * 336 + 270 + q.val) :
    refFn x (ix2 R j) = softmaxAt (fun k : Fin 11 => x (ix2 R ⟨b.val * 336 + 270 + q.val / 11 * 11 + k.val, by
        have := q.isLt; have := k.isLt; have := b.isLt; omega⟩)) ⟨q.val % 11, Nat.mod_lt _ (by decide)⟩ := by
  unfold refFn
  refine (joined_at_3 _ _ _ _ _ _ R b q j hj).trans ?_
  unfold seg3
  exact hostSegment_6x11 x 270 (by decide) _ _ _ _ (by decide) _ _ _ _ _ R b q

end Cert.ReferenceIdeal.RefValue

end
-- ==== Proof.KernelValue.lean ====
/-
  What the kernel leaves in the result array: the reference's function of the argument array.

  At grid point `t` the body loads block `t` of the argument (rows 256·t … 256·t + 255, all 3024 columns) and
  stores 36 pieces side by side, one per segment of the row: the piece at column `336 · b + off` holds, for every
  row of the block, the segment's groups softmaxed one by one. Each piece is therefore the reference's function
  `refFn` of the whole argument read at the piece's rows and columns (`piece_0` … `piece_3`, one per segment of a
  macro-block; the row of the array is `256 · t` plus the row of the block). The 36 pieces tile the block, so the
  staging buffer reads as block `t` of `refFn` (`pieces_eq`, `flushed_eq`); the 128 blocks tile the array, each
  written back once, so the result array ends holding `refFn` of the argument (`final`, `run`).
-/
import proofs.«135202_j77635828842932_1_alg».proof.Proof.Gen.KernelIdeal.Value
import proofs.«135202_j77635828842932_1_alg».proof.Proof.RefValue
import Idealize.ShloMosaic.Lib.Tactic

noncomputable section

namespace Cert.KernelIdeal.Hand

open Cert.KernelIdeal Cert.KernelIdeal.Gen Cert.KernelIdeal.Value Idealize.ShloMosaic Idealize.ShloMosaic.TcCoe
open Idealize.ShloMosaic.Tactic Idealize.SL.Sem
open Idealize.ShloMosaic.ValueIdx Idealize.ShloMosaic.LastAxisSoftmax Cert.SegmentRows
open Idealize.ShloMosaic.Pipeline (Dat)
open Cert.ReferenceIdeal.RefValue (refFn refFn_at_0 refFn_at_1 refFn_at_2 refFn_at_3)

theorem hz : (![0, 0] : Fin 2 → Nat) = fun _ => 0 := funext fun a => by fin_cases a <;> rfl

/-- Block `t` (rows 256·t … 256·t + 255) of the reference's function of the whole array `x`. -/
def blockG (x : FVec Ideal S32768x3024 .f32) (t : Fin 128) : Vec Ideal S256x3024 .f32 :=
  fun y => refFn x (ix2 (⟨256 * t.val + (y 0).val, by have := idx2_lt0 y; have := t.isLt; omega⟩ : Fin 32768)
    (⟨(y 1).val, idx2_lt1 y⟩ : Fin 3024))

/-- A stored piece of 99 columns at column `o = 336 · b + 0`: groups of 11, as the reference softmaxes the same columns. -/
theorem piece_0 (x : FVec Ideal S32768x3024 .f32) (t : Fin 128) (v0 : Vec Ideal S256x3024 .f32)
    (hv : ∀ (p : Fin 256) (col : Fin 3024) (R : Fin 32768), R.val = 256 * t.val + p.val → v0 (ix2 p col) = x (ix2 R col))
    (b : Fin 9) (o : Nat) (ho : o = b.val * 336 + 0)
    (hs : S256x3024.Slices ![0, o] S256x99)
    (inb : ∀ a, (![0, o] : Fin 2 → Nat) a + (![256, 99] : Fin 2 → Nat) a ≤ S256x3024.size a)
    (y : (⟨2, ![256, 99]⟩ : Shape).Idx) :
    shapeCast S256x99 (vecSoftmax3 (F := Ideal) (shapeCast S256x9x11 (extractStridedSlice S256x99 ![0, o] v0 hs) shapeCasts_S256x99_S256x9x11)
        reduces_S256x9x11_S256x9 shapeCasts_S256x9_S256x9x1 broadcasts_S256x9x1_S256x9x11 (.inl rfl) rfl rfl) shapeCasts_S256x9x11_S256x99 y
      = blockG x t ((Rect.unit (s := S256x3024) ![0, o] ![256, 99] inb).emb y) := by
  subst ho
  obtain ⟨p, q, rfl⟩ : ∃ (p : Fin 256) (q : Fin 99), y = ix2 p q := ⟨y 0, y 1, eq_ix2 y⟩
  have hb := b.isLt
  have hq := q.isLt
  refine (vecSegment_9x11 v0 _ (by omega) hs _ _ _ _ _ _ _ _ p q).trans ?_
  unfold blockG
  refine Eq.trans ?_ (refFn_at_0 x _ b q _ (by
    show (b.val * 336 + 0) + 1 * q.val = b.val * 336 + 0 + q.val
    omega)).symm
  refine congrArg (fun f : Fin 11 → EReal => softmaxAt f _) (funext fun k => ?_)
  exact hv p _ _ (by
    show 256 * t.val + (0 + 1 * p.val) = 256 * t.val + p.val
    omega)

/-- A stored piece of 99 columns at column `o = 336 · b + 99`: groups of 11, as the reference softmaxes the same columns. -/
theorem piece_1 (x : FVec Ideal S32768x3024 .f32) (t : Fin 128) (v0 : Vec Ideal S256x3024 .f32)
    (hv : ∀ (p : Fin 256) (col : Fin 3024) (R : Fin 32768), R.val = 256 * t.val + p.val → v0 (ix2 p col) = x (ix2 R col))
    (b : Fin 9) (o : Nat) (ho : o = b.val * 336 + 99)
    (hs : S256x3024.Slices ![0, o] S256x99)
    (inb : ∀ a, (![0, o] : Fin 2 → Nat) a + (![256, 99] : Fin 2 → Nat) a ≤ S256x3024.size a)
    (y : (⟨2, ![256, 99]⟩ : Shape).Idx) :
    shapeCast S256x99 (vecSoftmax3 (F := Ideal) (shapeCast S256x9x11 (extractStridedSlice S256x99 ![0, o] v0 hs) shapeCasts_S256x99_S256x9x11)
        reduces_S256x9x11_S256x9 shapeCasts_S256x9_S256x9x1 broadcasts_S256x9x1_S256x9x11 (.inl rfl) rfl rfl) shapeCasts_S256x9x11_S256x99 y
      = blockG x t ((Rect.unit (s := S256x3024) ![0, o] ![256, 99] inb).emb y) := by
  subst ho
  obtain ⟨p, q, rfl⟩ : ∃ (p : Fin 256) (q : Fin 99), y = ix2 p q := ⟨y 0, y 1, eq_ix2 y⟩
  have hb := b.isLt
  have hq := q.isLt
  refine (vecSegment_9x11 v0 _ (by omega) hs _ _ _ _ _ _ _ _ p q).trans ?_
  unfold blockG
  refine Eq.trans ?_ (refFn_at_1 x _ b q _ (by
    show (b.val * 336 + 99) + 1 * q.val = b.val * 336 + 99 + q.val
    omega)).symm
  refine congrArg (fun f : Fin 11 → EReal => softmaxAt f _) (funext fun k => ?_)
  exact hv p _ _ (by
    show 256 * t.val + (0 + 1 * p.val) = 256 * t.val + p.val
    omega)

/-- A stored piece of 72 columns at column `o = 336 · b + 198`: groups of 8, as the reference softmaxes the same columns. -/
theorem piece_2 (x : FVec Ideal S32768x3024 .f32) (t : Fin 128) (v0 : Vec Ideal S256x3024 .f32)
    (hv : ∀ (p : Fin 256) (col : Fin 3024) (R : Fin 32768), R.val = 256 * t.val + p.val → v0 (ix2 p col) = x (ix2 R col))
    (b : Fin 9) (o : Nat) (ho : o = b.val * 336 + 198)
    (hs : S256x3024.Slices ![0, o] S256x72)
    (inb : ∀ a, (![0, o] : Fin 2 → Nat) a + (![256, 72] : Fin 2 → Nat) a ≤ S256x3024.size a)
    (y : (⟨2, ![256, 72]⟩ : Shape).Idx) :
    shapeCast S256x72 (vecSoftmax3 (F := Ideal) (shapeCast S256x9x8 (extractStridedSlice S256x72 ![0, o] v0 hs) shapeCasts_S256x72_S256x9x8)
        reduces_S256x9x8_S256x9 shapeCasts_S256x9_S256x9x1 broadcasts_S256x9x1_S256x9x8 (.inl rfl) rfl rfl) shapeCasts_S256x9x8_S256x72 y
      = blockG x t ((Rect.unit (s := S256x3024) ![0, o] ![256, 72] inb).emb y) := by
  subst ho
  obtain ⟨p, q, rfl⟩ : ∃ (p : Fin 256) (q : Fin 72), y = ix2 p q := ⟨y 0, y 1, eq_ix2 y⟩
  have hb := b.isLt
  have hq := q.isLt
  refine (vecSegment_9x8 v0 _ (by omega) hs _ _ _ _ _ _ _ _ p q).trans ?_
  unfold blockG
  refine Eq.trans ?_ (refFn_at_2 x _ b q _ (by
    show (b.val * 336 + 198) + 1 * q.val = b.val * 336 + 198 + q.val
    omega)).symm
  refine congrArg (fun f : Fin 8 → EReal => softmaxAt f _) (funext fun k => ?_)
  exact hv p _ _ (by
    show 256 * t.val + (0 + 1 * p.val) = 256 * t.val + p.val
    omega)

/-- A stored piece of 66 columns at column `o = 336 · b + 270`: groups of 11, as the reference softmaxes the same columns. -/
theorem piece_3 (x : FVec Ideal S32768x3024 .f32) (t : Fin 128) (v0 : Vec Ideal S256x3024 .f32)
    (hv : ∀ (p : Fin 256) (col : Fin 3024) (R : Fin 32768), R.val = 256 * t.val + p.val → v0 (ix2 p col) = x (ix2 R col))
    (b : Fin 9) (o : Nat) (ho : o = b.val * 336 + 270)
    (hs : S256x3024.Slices ![0, o] S256x66)
    (inb : ∀ a, (![0, o] : Fin 2 → Nat) a + (![256, 66] : Fin 2 → Nat) a ≤ S256x3024.size a)
    (y : (⟨2, ![256, 66]⟩ : Shape).Idx) :
    shapeCast S256x66 (vecSoftmax3 (F := Ideal) (shapeCast S256x6x11 (extractStridedSlice S256x66 ![0, o] v0 hs) shapeCasts_S256x66_S256x6x11)
        reduces_S256x6x11_S256x6 shapeCasts_S256x6_S256x6x1 broadcasts_S256x6x1_S256x6x11 (.inl rfl) rfl rfl) shapeCasts_S256x6x11_S256x66 y
      = blockG x t ((Rect.unit (s := S256x3024) ![0, o] ![256, 66] inb).emb y) := by
  subst ho
  obtain ⟨p, q, rfl⟩ : ∃ (p : Fin 256) (q : Fin 66), y = ix2 p q := ⟨y 0, y 1, eq_ix2 y⟩
  have hb := b.isLt
  have hq := q.isLt
  refine (vecSegment_6x11 v0 _ (by omega) hs _ _ _ _ _ _ _ _ p q).trans ?_
  unfold blockG
  refine Eq.trans ?_ (refFn_at_3 x _ b q _ (by
    show (b.val * 336 + 270) + 1 * q.val = b.val * 336 + 270 + q.val
    omega)).symm
  refine congrArg (fun f : Fin 11 → EReal => softmaxAt f _) (funext fun k => ?_)
  exact hv p _ _ (by
    show 256 * t.val + (0 + 1 * p.val) = 256 * t.val + p.val
    omega)

/-- Every piece the body stores is `blockG` read through the piece's rectangle. -/
theorem pieces_eq (x : FVec Ideal S32768x3024 .f32) (t : Fin 128) (c : Dev nD) (i : grid0.Coords)
    (arg1 : Memref sig .tc .vmem S256x3024 .f32) (harg1 : arg1.IsWhole) (arg2 : Memref sig .tc .vmem S256x3024 .f32) (harg2 : arg2.IsWhole)
    (x0 : Vec Ideal S256x3024 .f32)
    (hv : ∀ (p : Fin 256) (col : Fin 3024) (R : Fin 32768), R.val = 256 * t.val + p.val → x0 (ix2 p col) = x (ix2 R col)) :
    ∀ pc ∈ (kernelRun0_A c i arg1 harg1 arg2 harg2 x0).1, ∀ y : pc.1.shape.Idx, pc.2 y = blockG x t (pc.1.emb y) := by
  unfold kernelRun0_A
  dsimp only
  sl_unfold_words
  simp only [View.readAt_eq_ld, harg1.read_unread, View.ld_unit_zero (S := S256x3024) hz]
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun y => piece_3 x t x0 hv ⟨8, by decide⟩ 2958 rfl slices_S256x3024_o0_2958_S256x66 inb_S256x3024_S256x66_0_2958 y
  · exact fun y => piece_2 x t x0 hv ⟨8, by decide⟩ 2886 rfl slices_S256x3024_o0_2886_S256x72 inb_S256x3024_S256x72_0_2886 y
  · exact fun y => piece_1 x t x0 hv ⟨8, by decide⟩ 2787 rfl slices_S256x3024_o0_2787_S256x99 inb_S256x3024_S256x99_0_2787 y
  · exact fun y => piece_0 x t x0 hv ⟨8, by decide⟩ 2688 rfl slices_S256x3024_o0_2688_S256x99 inb_S256x3024_S256x99_0_2688 y
  · exact fun y => piece_3 x t x0 hv ⟨7, by decide⟩ 2622 rfl slices_S256x3024_o0_2622_S256x66 inb_S256x3024_S256x66_0_2622 y
  · exact fun y => piece_2 x t x0 hv ⟨7, by decide⟩ 2550 rfl slices_S256x3024_o0_2550_S256x72 inb_S256x3024_S256x72_0_2550 y
  · exact fun y => piece_1 x t x0 hv ⟨7, by decide⟩ 2451 rfl slices_S256x3024_o0_2451_S256x99 inb_S256x3024_S256x99_0_2451 y
  · exact fun y => piece_0 x t x0 hv ⟨7, by decide⟩ 2352 rfl slices_S256x3024_o0_2352_S256x99 inb_S256x3024_S256x99_0_2352 y
  · exact fun y => piece_3 x t x0 hv ⟨6, by decide⟩ 2286 rfl slices_S256x3024_o0_2286_S256x66 inb_S256x3024_S256x66_0_2286 y
  · exact fun y => piece_2 x t x0 hv ⟨6, by decide⟩ 2214 rfl slices_S256x3024_o0_2214_S256x72 inb_S256x3024_S256x72_0_2214 y
  · exact fun y => piece_1 x t x0 hv ⟨6, by decide⟩ 2115 rfl slices_S256x3024_o0_2115_S256x99 inb_S256x3024_S256x99_0_2115 y
  · exact fun y => piece_0 x t x0 hv ⟨6, by decide⟩ 2016 rfl slices_S256x3024_o0_2016_S256x99 inb_S256x3024_S256x99_0_2016 y
  · exact fun y => piece_3 x t x0 hv ⟨5, by decide⟩ 1950 rfl slices_S256x3024_o0_1950_S256x66 inb_S256x3024_S256x66_0_1950 y
  · exact fun y => piece_2 x t x0 hv ⟨5, by decide⟩ 1878 rfl slices_S256x3024_o0_1878_S256x72 inb_S256x3024_S256x72_0_1878 y
  · exact fun y => piece_1 x t x0 hv ⟨5, by decide⟩ 1779 rfl slices_S256x3024_o0_1779_S256x99 inb_S256x3024_S256x99_0_1779 y
  · exact fun y => piece_0 x t x0 hv ⟨5, by decide⟩ 1680 rfl slices_S256x3024_o0_1680_S256x99 inb_S256x3024_S256x99_0_1680 y
  · exact fun y => piece_3 x t x0 hv ⟨4, by decide⟩ 1614 rfl slices_S256x3024_o0_1614_S256x66 inb_S256x3024_S256x66_0_1614 y
  · exact fun y => piece_2 x t x0 hv ⟨4, by decide⟩ 1542 rfl slices_S256x3024_o0_1542_S256x72 inb_S256x3024_S256x72_0_1542 y
  · exact fun y => piece_1 x t x0 hv ⟨4, by decide⟩ 1443 rfl slices_S256x3024_o0_1443_S256x99 inb_S256x3024_S256x99_0_1443 y
  · exact fun y => piece_0 x t x0 hv ⟨4, by decide⟩ 1344 rfl slices_S256x3024_o0_1344_S256x99 inb_S256x3024_S256x99_0_1344 y
  · exact fun y => piece_3 x t x0 hv ⟨3, by decide⟩ 1278 rfl slices_S256x3024_o0_1278_S256x66 inb_S256x3024_S256x66_0_1278 y
  · exact fun y => piece_2 x t x0 hv ⟨3, by decide⟩ 1206 rfl slices_S256x3024_o0_1206_S256x72 inb_S256x3024_S256x72_0_1206 y
  · exact fun y => piece_1 x t x0 hv ⟨3, by decide⟩ 1107 rfl slices_S256x3024_o0_1107_S256x99 inb_S256x3024_S256x99_0_1107 y
  · exact fun y => piece_0 x t x0 hv ⟨3, by decide⟩ 1008 rfl slices_S256x3024_o0_1008_S256x99 inb_S256x3024_S256x99_0_1008 y
  · exact fun y => piece_3 x t x0 hv ⟨2, by decide⟩ 942 rfl slices_S256x3024_o0_942_S256x66 inb_S256x3024_S256x66_0_942 y
  · exact fun y => piece_2 x t x0 hv ⟨2, by decide⟩ 870 rfl slices_S256x3024_o0_870_S256x72 inb_S256x3024_S256x72_0_870 y
  · exact fun y => piece_1 x t x0 hv ⟨2, by decide⟩ 771 rfl slices_S256x3024_o0_771_S256x99 inb_S256x3024_S256x99_0_771 y
  · exact fun y => piece_0 x t x0 hv ⟨2, by decide⟩ 672 rfl slices_S256x3024_o0_672_S256x99 inb_S256x3024_S256x99_0_672 y
  · exact fun y => piece_3 x t x0 hv ⟨1, by decide⟩ 606 rfl slices_S256x3024_o0_606_S256x66 inb_S256x3024_S256x66_0_606 y
  · exact fun y => piece_2 x t x0 hv ⟨1, by decide⟩ 534 rfl slices_S256x3024_o0_534_S256x72 inb_S256x3024_S256x72_0_534 y
  · exact fun y => piece_1 x t x0 hv ⟨1, by decide⟩ 435 rfl slices_S256x3024_o0_435_S256x99 inb_S256x3024_S256x99_0_435 y
  · exact fun y => piece_0 x t x0 hv ⟨1, by decide⟩ 336 rfl slices_S256x3024_o0_336_S256x99 inb_S256x3024_S256x99_0_336 y
  · exact fun y => piece_3 x t x0 hv ⟨0, by decide⟩ 270 rfl slices_S256x3024_o0_270_S256x66 inb_S256x3024_S256x66_0_270 y
  · exact fun y => piece_2 x t x0 hv ⟨0, by decide⟩ 198 rfl slices_S256x3024_o0_198_S256x72 inb_S256x3024_S256x72_0_198 y
  · exact fun y => piece_1 x t x0 hv ⟨0, by decide⟩ 99 rfl slices_S256x3024_o0_99_S256x99 inb_S256x3024_S256x99_0_99 y
  · exact fun y => piece_0 x t x0 hv ⟨0, by decide⟩ 0 rfl slices_S256x3024_o0_0_S256x99 inb_S256x3024_S256x99_0_0 y

/-! ## The blocks of the argument, the write-backs, the whole array -/

variable (m : (ℓ : Loc nD τ sig) → Buf (Elt Ideal) ℓ) (ρ : Dev nD → PrngReg)

/-- Both windows move down the rows with the grid: block `t` is rows 256·t … 256·t + 255, every column. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The grid has 128 points. -/
theorem t_lt (t : Fin cfg0.N) : t.val < 128 := by
  have h : t.val < cfg0.N := t.isLt
  have e : cfg0.N = 128 := N_0
  omega

/-- The reference's function of core `c`'s argument array. -/
abbrev want (c : Dev nD) : S32768x3024.Idx → Elt Ideal .f32 :=
  refFn (F := Ideal) (m ((c : Thread nD τ).loc main_arg0))

/-- Entry (p, col) of the input block at point `t` is entry (256·t + p, col) of the argument. -/
theorem iblk_apply (c : Dev nD) (t : Fin cfg0.N) (p : Fin 256) (col : Fin 3024) (R : Fin 32768)
    (hR : R.val = 256 * t.val + p.val) :
    (iblk m c 0 t : Vec Ideal S256x3024 .f32) (ix2 p col)
      = (m ((c : Thread nD τ).loc main_arg0) : S32768x3024.Idx → Elt Ideal .f32) (ix2 R col) := by
  obtain ⟨e0, e1, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 256 + 1 * p.val = R.val; rw [e0, hR]; omega
  | ⟨1, _⟩ => show win0_0.index t 1 * 3024 + 1 * col.val = col.val; rw [e1]; omega

/-- What point `t` writes back is block `t` of the reference's function of the argument. -/
theorem flushed_eq (c : Dev nD) (t : Fin cfg0.N) :
    (dats m 0 c).flushed 1 t
      = ((cfg0.win 1).blk t).view.read (Elt Ideal) (want m c) := by
  rw [flushed1_A]
  funext y
  show out0_A_1 c (grid0.coords t) (ms0_0 t) (hs0_0 t) (ms0_1 t) (hs0_1 t) (iblk m c 0 t) y = _
  unfold out0_A_1
  rw [View.read_writes_junk_eq_canon]
  refine (View.canon_apply_of_pieces (blockG (m ((c : Thread nD τ).loc main_arg0)) ⟨t.val, t_lt t⟩) _
    (pieces_eq _ _ c _ _ _ _ _ _ (fun p col R hR => iblk_apply m c t p col R hR)) y
    (cover0_A_1 c _ _ _ _ _ _ y)).trans ?_
  obtain ⟨-, -, e0, e1⟩ := idx_facts t
  rw [View.read_apply]
  unfold blockG
  refine congrArg (want m c) (funext fun a => Fin.ext ?_)
  match a with
  | ⟨0, _⟩ => show 256 * t.val + (y 0).val = win0_1.index t 0 * 256 + 1 * (y 0).val; rw [e0]; omega
  | ⟨1, _⟩ => show (y 1).val = win0_1.index t 1 * 3024 + 1 * (y 1).val; rw [e1]; omega

/-- An index of the array is in point `t`'s block iff each coordinate is in the block's range on its axis. -/
theorem mem_blk (t : Fin cfg0.N) (i : S32768x3024.Idx) :
    i ∈ ((cfg0.win 1).blk t).view.set ↔ ∀ a : Fin 2, win0_1.index t a * S256x3024.size a ≤ (i a).val
      ∧ (i a).val < win0_1.index t a * S256x3024.size a + S256x3024.size a := by
  show i ∈ ((View.whole main_v0).slice (win0_1.rect t)).set ↔ _
  rw [View.set_slice_whole, Rect.mem_set_unit]
  exact Iff.rfl

/-- Row `R` lies in the block of point `R / 256`: the 128 blocks tile the array. -/
theorem cover (i : S32768x3024.Idx) :
    ∃ t : Fin cfg0.N, (cfg0.win 1).flush t = true ∧ i ∈ ((cfg0.win 1).blk t).view.set := by
  have h0 : (i 0).val < 32768 := idx2_lt0 i
  have h1 : (i 1).val < 3024 := idx2_lt1 i
  refine ⟨⟨(i 0).val / 256, by rw [show cfg0.N = 128 from N_0]; omega⟩, flush0_1 _, ?_⟩
  rw [mem_blk]
  obtain ⟨-, -, e0, e1⟩ := idx_facts ⟨(i 0).val / 256, by rw [show cfg0.N = 128 from N_0]; omega⟩
  intro a
  match a with
  | ⟨0, _⟩ =>
    show win0_1.index _ (0 : Fin 2) * 256 ≤ (i 0).val ∧ (i 0).val < win0_1.index _ (0 : Fin 2) * 256 + 256
    rw [e0]
    show (i 0).val / 256 * 256 ≤ (i 0).val ∧ (i 0).val < (i 0).val / 256 * 256 + 256
    omega
  | ⟨1, _⟩ =>
    show win0_1.index _ (1 : Fin 2) * 3024 ≤ (i 1).val ∧ (i 1).val < win0_1.index _ (1 : Fin 2) * 3024 + 3024
    rw [e1]
    omega

/-- After the run the result array holds the reference's function of the argument array. -/
theorem final (c : Dev nD) :
    (dats m 0 c).arrAt 1 cfg0.N = want m c :=
  (dats m 0 c).arrAt_eq_of_cover 1 (want m c) (fun t _ => flushed_eq m c t) cover

/-- The kernel's run, read: the result array at the reference's function of the argument, the argument unchanged. -/
theorem run : θ_run defs (onTc (τ := τ) (main (F := Ideal))) ⟨m, fun _ => 0, ρ⟩ fun r => ∀ c : Dev nD,
      r.2.mem ((c : Thread nD τ).loc main_v0) = want m c
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Hand

end
-- ==== Proof.RefRun.lean ====
/-
  The reference's run, read as a function of its argument.

  The reference is a straight line of 71 host operations: a reshape of the argument, four times the seventeen
  operations of one segment's softmax, the join of the four results and a last reshape. Read after all of them,
  each segment's buffer holds `seg0` … `seg3` of the argument array (one equation per buffer: every operation's
  result is its function of its operands' contents, and the segment softmax spelled operation by operation is the
  last-axis softmax of the library file). The join reads the four buffers and the last reshape the join, so the
  result buffer holds `refFn` of the argument (`result_eq`), at every weakly fair execution (`run`).
-/
import proofs.«135202_j77635828842932_1_alg».proof.Proof.RefRunPatched
import proofs.«135202_j77635828842932_1_alg».proof.Proof.RefValue

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.LastAxisSoftmax

variable {F : FTy → Type} [FloatOps F]

open Cert.ReferenceIdeal.ValueP (ops main_eq scopedRefs_eq scopedSems_eq ops_sub)

set_option maxRecDepth 65536 in
set_option maxHeartbeats 4000000 in
/-- After the whole line, segment 0's buffer holds `seg0` of the argument. -/
theorem seg0_eq (m : (ℓ : Loc nD τ sig) → Buf (Elt F) ℓ) (c : Dev nD) :
    after (ops (F := F)) (launchContents m c) (Proc.devRef .tc main_v14) = seg0 (m ((c.tc : Thread nD τ).loc main_arg0)) := by
  after_results_simp <;> rfl

set_option maxRecDepth 65536 in
set_option maxHeartbeats 4000000 in
/-- After the whole line, segment 1's buffer holds `seg1` of the argument. -/
theorem seg1_eq (m : (ℓ : Loc nD τ sig) → Buf (Elt F) ℓ) (c : Dev nD) :
    after (ops (F := F)) (launchContents m c) (Proc.devRef .tc main_v28) = seg1 (m ((c.tc : Thread nD τ).loc main_arg0)) := by
  after_results_simp <;> rfl

set_option maxRecDepth 65536 in
set_option maxHeartbeats 4000000 in
/-- After the whole line, segment 2's buffer holds `seg2` of the argument. -/
theorem seg2_eq (m : (ℓ : Loc nD τ sig) → Buf (Elt F) ℓ) (c : Dev nD) :
    after (ops (F := F)) (launchContents m c) (Proc.devRef .tc main_v42) = seg2 (m ((c.tc : Thread nD τ).loc main_arg0)) := by
  after_results_simp <;> rfl

set_option maxRecDepth 65536 in
set_option maxHeartbeats 4000000 in
/-- After the whole line, segment 3's buffer holds `seg3` of the argument. -/
theorem seg3_eq (m : (ℓ : Loc nD τ sig) → Buf (Elt F) ℓ) (c : Dev nD) :
    after (ops (F := F)) (launchContents m c) (Proc.devRef .tc main_v56) = seg3 (m ((c.tc : Thread nD τ).loc main_arg0)) := by
  after_results_simp <;> rfl

set_option maxRecDepth 65536 in
set_option maxHeartbeats 4000000 in
/-- After the whole line the result buffer holds `refFn` of the argument: the join of the four segment buffers,
    reshaped. -/
theorem result_eq (m : (ℓ : Loc nD τ sig) → Buf (Elt F) ℓ) (c : Dev nD) :
    after (ops (F := F)) (launchContents m c) (Proc.devRef .tc main_v58) = refFn (m ((c.tc : Thread nD τ).loc main_arg0)) := by
  have e0 := seg0_eq m c
  have e1 := seg1_eq m c
  have e2 := seg2_eq m c
  have e3 := seg3_eq m c
  simp only [after_cons, after_nil] at e0 e1 e2 e3 ⊢
  -- the last two operations write neither of the four segment buffers
  rw [reshape_result_ne, nary_result_ne] at e0 <;> try decide
  rw [reshape_result_ne, nary_result_ne] at e1 <;> try decide
  rw [reshape_result_ne, nary_result_ne] at e2 <;> try decide
  rw [reshape_result_ne, nary_result_ne] at e3 <;> try decide
  -- the last reshape reads the join, the join its four operands
  rw [reshape_result, nary4_result, e0, e1, e2, e3]
  rfl

/-- Every weakly fair execution of the reference terminates with the result at `refFn` of the argument and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = refFn (m ((c.tc : Thread nD τ).loc main_arg0))
      ∧ r.2.mem ((c.tc : Thread nD τ).loc main_arg0) = m ((c.tc : Thread nD τ).loc main_arg0) :=
  (θ_run defs _ _).mono (fun _ h c => ⟨(h c main_v58).trans (result_eq m c),
      (h c main_arg0).trans (by after_results_simp <;> rfl)⟩)
    (run_seq scopedRefs_eq scopedSems_eq defs main (fun _ => ops) main_eq (fun _ => ops_sub) m ρ)

end Cert.ReferenceIdeal.RefValue

end
-- ==== Proof.lean ====
/-
  The kernel softmaxes every row of a [32768, 3024] array segment by segment: the 3024 columns are nine
  macro-blocks of 336 columns, each macro-block four segments of 99, 99, 72 and 66 columns, each segment
  read as groups of 11, 11, 8 and 11 columns, and every group is softmaxed by itself (subtract the group's
  maximum, exponentiate, divide by the group's sum). The kernel does this 256 rows at a time, one grid point
  per block of rows, with one store per segment; the reference does it for all rows at once, one macro-block
  axis and one segment at a time, and joins the pieces.

  On the extended reals the two programs compute one function of the argument array. Both softmaxes are,
  index by index, `exp (f l - M) / ∑ exp (f k - M)` over the same group `f` of columns with the same maximum
  `M` (Proof/LibLastAxisSoftmax.lean); which columns a result column's group consists of is index arithmetic
  (Proof/SegmentRows.lean); so the reference's result is a function `refFn` of its argument read that way
  (Proof/RefValue.lean, Proof/RefRun.lean), every piece the kernel stores is a block of the same function, the
  36 pieces tile a block of rows and the 128 blocks tile the array (Proof/KernelValue.lean). No law of
  arithmetic beyond `max b (fold max b f) = fold max b f` and `0 + s = s` is used, and finiteness of the
  input is never needed: the frames hold for every input, and the values agree at the infinities too.
-/
import proofs.«135202_j77635828842932_1_alg».proof.Defs
import proofs.«135202_j77635828842932_1_alg».proof.Proof.Gen.Kernel
import proofs.«135202_j77635828842932_1_alg».proof.Proof.Gen.Kernel.Skeleton
import proofs.«135202_j77635828842932_1_alg».proof.Proof.Gen.Kernel.Launch
import proofs.«135202_j77635828842932_1_alg».proof.Proof.Gen.Kernel.Points
import proofs.«135202_j77635828842932_1_alg».proof.Proof.Gen.Kernel.Frame
import proofs.«135202_j77635828842932_1_alg».proof.Proof.Gen.KernelIdeal
import proofs.«135202_j77635828842932_1_alg».proof.Proof.Gen.KernelIdeal.Skeleton
import proofs.«135202_j77635828842932_1_alg».proof.Proof.Gen.KernelIdeal.Launch
import proofs.«135202_j77635828842932_1_alg».proof.Proof.Gen.KernelIdeal.Points
import proofs.«135202_j77635828842932_1_alg».proof.Proof.Gen.KernelIdeal.Frame
import proofs.«135202_j77635828842932_1_alg».proof.Proof.Gen.ReferenceIdeal
import proofs.«135202_j77635828842932_1_alg».proof.Proof.Gen.KernelIdeal.Value
import proofs.«135202_j77635828842932_1_alg».proof.Proof.Gen.Pre_finite_inputs
import proofs.«135202_j77635828842932_1_alg».proof.Proof.KernelValue
import proofs.«135202_j77635828842932_1_alg».proof.Proof.RefRun
import Idealize.ShloMosaic.Adequacy
import Idealize.ShloMosaic.Init

noncomputable section

namespace Cert.Proof

open Idealize.ShloMosaic Idealize.SL.Sem

/-- The kernel as printed runs, and leaves its argument as it found it. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs, and leaves its argument as it found it: its run with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- On the extended reals the kernel's result array and the reference's are one function of arguments that
    agree: each ends at `refFn` of its own argument. -/
theorem algebraic : Cert.algebraic_KernelIdeal_ReferenceIdeal := by
  intro m ρ m' ρ' _ hagree
  refine ⟨fun c => Cert.KernelIdeal.Hand.want m c, Cert.KernelIdeal.Hand.run m ρ, ?_⟩
  refine (θ_run Cert.ReferenceIdeal.defs _ _).mono (fun _ h c => ⟨(h c).1.trans ?_, (h c).2⟩)
    (Cert.ReferenceIdeal.RefValue.run (F := Ideal) m' ρ')
  exact congrArg (Cert.ReferenceIdeal.RefValue.refFn (F := Ideal)) (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
